-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S524288 : Shape := ⟨1, ![524288]⟩
abbrev S2x524288 : Shape := ⟨2, ![2, 524288]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S8192x64 .f32) (main_arg1 : FVec F S524288 .f32) (main_arg2 : IVec S2x524288 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  main_v8
-- ==== Kernel.lean ====
abbrev S8192x64 : Shape := ⟨2, ![8192, 64]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S8192 : Shape := ⟨1, ![8192]⟩
abbrev S524288x1 : Shape := ⟨2, ![524288, 1]⟩
abbrev S8192x8192 : Shape := ⟨2, ![8192, 8192]⟩
abbrev S524288x2 : Shape := ⟨2, ![524288, 2]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 66
  | .vmem => 18
  | .smem => 0
  | _ => 0

abbrev bufTy : (tb : Table) → Fin (tcTables nBuf tb) → BufTy
  | .hbm, ⟨0, _⟩ => ⟨S8192x64, .f32⟩
  | .hbm, ⟨1, _⟩ => ⟨S524288, .f32⟩
  | .hbm, ⟨2, _⟩ => ⟨S2x524288, .i32⟩
  | .hbm, ⟨3, _⟩ => ⟨S1x524288, .i32⟩
  | .hbm, ⟨4, _⟩ => ⟨S524288, .i32⟩
  | .hbm, ⟨5, _⟩ => ⟨S1x524288, .i32⟩
  | .hbm, ⟨6, _⟩ => ⟨S524288, .i32⟩
  | .hbm, ⟨7, _⟩ => ⟨S_, .f32⟩
  | .hbm, ⟨8, _⟩ => ⟨S8192, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S_, .f32⟩
  | .hbm, ⟨18, _⟩ => ⟨S524288, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288, .f32⟩
  | .hbm, ⟨32, _⟩ => ⟨S524288, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288, .f32⟩
  | .hbm, ⟨42, _⟩ => ⟨S524288, .f32⟩
  | .hbm, ⟨43, _⟩ => ⟨S_, .f32⟩
  | .hbm, ⟨44, _⟩ => ⟨S8192x8192, .f32⟩
  | .hbm, ⟨45, _⟩ => ⟨S_, .i32⟩
  | .hbm, ⟨46, _⟩ => ⟨S524288, .i32⟩
  | .hbm, ⟨47, _⟩ => ⟨S524288, .i1⟩
  | .hbm, ⟨48, _⟩ => ⟨S_, .i32⟩
  | .hbm, ⟨49, _⟩ => ⟨S524288, .i32⟩
  | .hbm, ⟨50, _⟩ => ⟨S524288, .i32⟩
  | .hbm, ⟨51, _⟩ => ⟨S524288, .i32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x1, .i32⟩
  | .hbm, ⟨61, _⟩ => ⟨S524288x2, .i32⟩
  | .hbm, ⟨62, _⟩ => ⟨S8192x8192, .f32⟩
  | .hbm, ⟨63, _⟩ => ⟨S8192x8192, .bf16⟩
  | .hbm, ⟨64, _⟩ => ⟨S8192x8192, .bf16⟩
  | .hbm, ⟨65, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 32], ![false, false, false]⟩

def k1_cond2 (i : grid1.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S8192 : S_.BroadcastsInDim S8192 (![] : Fin 0 → Fin S8192.rank)
  bcast_S_S524288 : S_.BroadcastsInDim S524288 (![] : Fin 0 → Fin S524288.rank)
  bcast_S524288_S524288x1_0 : S524288.BroadcastsInDim S524288x1 (![0] : Fin 1 → Fin S524288x1.rank)
  bcast_S_S8192x8192 : S_.BroadcastsInDim S8192x8192 (![] : Fin 0 → Fin S8192x8192.rank)
  concatenates_S524288x1_S524288x1_S524288x2_d1 : Shape.Concatenates [S524288x1, S524288x1] S524288x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  iota_S1024x1024_d0_w32 : S1024x1024.Iotas .tc 32 [0]
  iota_S1024x1024_d1_w32 : S1024x1024.Iotas .tc 32 [1]
  natLt_1_32 : 1 < 32
  scatter_S8192_S524288x1_S524288_n_0_0_1_wf : ScatterDims.WF S8192 S524288x1 S524288 [] [0] [0] 1
  gather_S8192_S524288x1_S524288_n_0_n_n_0_1_1_wf : GatherDims.WF S8192 S524288x1 S524288 [] [0] [] [0] [] 1 ![1]
  scatter_S8192x8192_S524288x2_S524288_n_01_01_1_wf : ScatterDims.WF S8192x8192 S524288x2 S524288 [] [0, 1] [0, 1] 1
  dot_S1024x1024_S1024x1024_S1024x1024_1_0_0_1_n_n_wf : DotDims.WF S1024x1024 S1024x1024 S1024x1024 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .bf16 = 32 ∨ (Rect.block (s := S8192x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x8192.size a
  hwx1_0 : ∀ i : grid1.Coords, EltTy.bits .bf16 = 32 ∨ (Rect.block (s := S8192x8192) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S8192x8192.size a
  hwx1_1 : ∀ i : grid1.Coords, EltTy.bits .bf16 = 32 ∨ (Rect.block (s := S8192x8192) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .bf16 = 32 ∨ (Rect.block (s := S8192x8192) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .bf16 = 32 ∨ (Rect.block (s := S8192x8192) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)

variable [Facts₀]

def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def gather_S8192_S524288x1_S524288_n_0_n_n_0_1_1 : GatherDims S8192 S524288x1 S524288 where
  offsetDims := []
  collapsedSliceDims := [0]
  operandBatchingDims := []
  startIndicesBatchingDims := []
  startIndexMap := [0]
  indexVectorDim := 1
  sliceSizes := ![1]
  wf := gather_S8192_S524288x1_S524288_n_0_n_n_0_1_1_wf
def scatter_S8192x8192_S524288x2_S524288_n_01_01_1 : ScatterDims S8192x8192 S524288x2 S524288 where
  updateWindowDims := []
  insertedWindowDims := [0, 1]
  scatterDimsToOperandDims := [0, 1]
  indexVectorDim := 1
  wf := scatter_S8192x8192_S524288x2_S524288_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v46) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v46) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x64 : Shape := ⟨2, ![8192, 64]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S8192 : Shape := ⟨1, ![8192]⟩
abbrev S524288x1 : Shape := ⟨2, ![524288, 1]⟩
abbrev S8192x8192 : Shape := ⟨2, ![8192, 8192]⟩
abbrev S524288x2 : Shape := ⟨2, ![524288, 2]⟩

abbrev nBuf : Space → Nat
  | .hbm => 81
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S524288, .f32⟩
  | .hbm, ⟨2, _⟩ => ⟨S2x524288, .i32⟩
  | .hbm, ⟨3, _⟩ => ⟨S1x524288, .i32⟩
  | .hbm, ⟨4, _⟩ => ⟨S524288, .i32⟩
  | .hbm, ⟨5, _⟩ => ⟨S1x524288, .i32⟩
  | .hbm, ⟨6, _⟩ => ⟨S524288, .i32⟩
  | .hbm, ⟨7, _⟩ => ⟨S_, .f32⟩
  | .hbm, ⟨8, _⟩ => ⟨S8192, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S_, .f32⟩
  | .hbm, ⟨18, _⟩ => ⟨S524288, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288, .f32⟩
  | .hbm, ⟨32, _⟩ => ⟨S524288, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288, .f32⟩
  | .hbm, ⟨42, _⟩ => ⟨S524288, .f32⟩
  | .hbm, ⟨43, _⟩ => ⟨S_, .f32⟩
  | .hbm, ⟨44, _⟩ => ⟨S8192x8192, .f32⟩
  | .hbm, ⟨45, _⟩ => ⟨S_, .i32⟩
  | .hbm, ⟨46, _⟩ => ⟨S524288, .i32⟩
  | .hbm, ⟨47, _⟩ => ⟨S524288, .i1⟩
  | .hbm, ⟨48, _⟩ => ⟨S_, .i32⟩
  | .hbm, ⟨49, _⟩ => ⟨S524288, .i32⟩
  | .hbm, ⟨50, _⟩ => ⟨S524288, .i32⟩
  | .hbm, ⟨51, _⟩ => ⟨S524288, .i32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x1, .i32⟩
  | .hbm, ⟨61, _⟩ => ⟨S524288x2, .i32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .i32⟩
  | .hbm, ⟨71, _⟩ => ⟨S8192x8192, .i32⟩
  | .hbm, ⟨72, _⟩ => ⟨S_, .i32⟩
  | .hbm, ⟨73, _⟩ => ⟨S8192x8192, .i32⟩
  | .hbm, ⟨74, _⟩ => ⟨S8192x8192, .i32⟩
  | .hbm, ⟨75, _⟩ => ⟨S8192x8192, .i1⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S8192 : S_.BroadcastsInDim S8192 (![] : Fin 0 → Fin S8192.rank)
  bcast_S_S524288 : S_.BroadcastsInDim S524288 (![] : Fin 0 → Fin S524288.rank)
  bcast_S524288_S524288x1_0 : S524288.BroadcastsInDim S524288x1 (![0] : Fin 1 → Fin S524288x1.rank)
  bcast_S_S8192x8192 : S_.BroadcastsInDim S8192x8192 (![] : Fin 0 → Fin S8192x8192.rank)
  concatenates_S524288x1_S524288x1_S524288x2_d1 : Shape.Concatenates [S524288x1, S524288x1] S524288x2 1
  scatter_S8192_S524288x1_S524288_n_0_0_1_wf : ScatterDims.WF S8192 S524288x1 S524288 [] [0] [0] 1
  gather_S8192_S524288x1_S524288_n_0_n_n_0_1_1_wf : GatherDims.WF S8192 S524288x1 S524288 [] [0] [] [0] [] 1 ![1]
  scatter_S8192x8192_S524288x2_S524288_n_01_01_1_wf : ScatterDims.WF S8192x8192 S524288x2 S524288 [] [0, 1] [0, 1] 1
  dot_S8192x8192_S8192x8192_S8192x8192_1_0_0_1_n_n_wf : DotDims.WF S8192x8192 S8192x8192 S8192x8192 [1] [0] [0] [1] [] []

variable [Facts₀]

def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def gather_S8192_S524288x1_S524288_n_0_n_n_0_1_1 : GatherDims S8192 S524288x1 S524288 where
  offsetDims := []
  collapsedSliceDims := [0]
  operandBatchingDims := []
  startIndicesBatchingDims := []
  startIndexMap := [0]
  indexVectorDim := 1
  sliceSizes := ![1]
  wf := gather_S8192_S524288x1_S524288_n_0_n_n_0_1_1_wf
def scatter_S8192x8192_S524288x2_S524288_n_01_01_1 : ScatterDims S8192x8192 S524288x2 S524288 where
  updateWindowDims := []
  insertedWindowDims := [0, 1]
  scatterDimsToOperandDims := [0, 1]
  indexVectorDim := 1
  wf := scatter_S8192x8192_S524288x2_S524288_n_01_01_1_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf

class Facts : Prop extends Facts₀ where

variable [Facts]
-- ==== Proof.Bits.Glue.lean ====
/-
  The two kernel regions of @main, as items of its run.

  @main is three items: the host operations that build the normalized adjacency matrix, region 0 (the matrix squared,
  accumulated block by block) and region 1 (the matrix times its square, with the combination fused into the last block's
  step). Each region reads one array through two windows — region 0 the matrix as the left and as the right factor; region 1
  the matrix and its square, each as a factor and as an addend — so of such an array's buffer one window holds the left half
  of the share and the other the right half: the halves are dealt when the region is entered and joined again when it is
  left, the contents being the same on both. With that, each region runs from every unscoped buffer at its contents before
  the region to the same buffers with the region's one result array at what its write-backs leave, and the three items in
  sequence terminate, fault nowhere, leave the three arguments as launched and the result array at what region 1 leaves.
  Everything here is stated over the regions' proof data abstractly (`DataFacts`) and for any float instance.
-/
import proofs.«163472_j66348654788876_2_alg».proof.Proof.Gen.Kernel.Regions
import proofs.«163472_j66348654788876_2_alg».proof.Proof.Gen.Kernel.Points
import Idealize.ShloMosaic.Lib.Pipeline.RegionsLoop
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows

Region 0 reads `main_v46` through windows 0 and 1 and writes `main_v47` through window 2; region 1 reads `main_v46` through
windows 0 and 2, `main_v47` through windows 1 and 3, and writes `main_v48` through window 4. -/

theorem img0 : Finset.univ.image (Pipeline.arrRef spec0) = ({main_v46, main_v47} : Finset (Ref sig .tc)) := by decide
theorem img1 : Finset.univ.image (Pipeline.arrRef spec1) = ({main_v46, main_v47, main_v48} : Finset (Ref sig .tc)) := by decide

/-- An input window's share is the one its proof data names. -/
theorem share_in {Λ₀ : Labels} {cfg : Pipeline.Cfg sig Λ₀} {c : Dev nD} (dat : Dat τ (Elt F) Unit ℕ (UR sig nD τ) ℕ cfg c) (w : Fin cfg.W)
    (h : (cfg.win w).isOut = false) : dat.share w = dat.q w := by
  unfold Dat.share; rw [h]; rfl

/-- An output window's array is held outright. -/
theorem share_out {Λ₀ : Labels} {cfg : Pipeline.Cfg sig Λ₀} {c : Dev nD} (dat : Dat τ (Elt F) Unit ℕ (UR sig nD τ) ℕ cfg c) (w : Fin cfg.W)
    (h : (cfg.win w).isOut = true) : dat.share w = fullShare := by
  unfold Dat.share; rw [h]; rfl

/-- One buffer held outright is the same buffer held at the two halves of the full share. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The distinct buffers behind region 0's windows: `main_v46`'s and `main_v47`'s. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_v46) ↦{fullShare} V main_v46) ∗ (((c.tc : Thread nD τ).loc main_v47) ↦{fullShare} V main_v47)) := by
  unfold Pipeline.arrBufs
  rw [img0, bigSep_insert (by decide : main_v46 ∉ ({main_v47} : Finset (Ref sig .tc))), bigSep_singleton]
  rfl

theorem v46_notMem : main_v46 ∉ ({main_v47, main_v48} : Finset (Ref sig .tc)) := by
  simp only [Finset.mem_insert, Finset.mem_singleton, not_or]; exact ⟨by decide, by decide⟩

/-- The distinct buffers behind region 1's windows: `main_v46`'s, `main_v47`'s and `main_v48`'s. -/
theorem arrBufs1_eq (c : Dev nD) (V : (b : Ref sig .tc) → Buf (Elt F) ((c.tc : Thread nD τ).loc b)) :
    (Pipeline.arrBufs (Ix := Unit) (Name := ℕ) (U := UR sig nD τ) (Lvl := ℕ) spec1 c V : sProp 𝕄)
      = iprop((((c.tc : Thread nD τ).loc main_v46) ↦{fullShare} V main_v46) ∗ (((c.tc : Thread nD τ).loc main_v47) ↦{fullShare} V main_v47)
          ∗ (((c.tc : Thread nD τ).loc main_v48) ↦{fullShare} V main_v48)) := by
  unfold Pipeline.arrBufs
  rw [img1, bigSep_insert v46_notMem, bigSep_insert (by decide : main_v47 ∉ ({main_v48} : Finset (Ref sig .tc))), bigSep_singleton]
  rfl

/-- The windows' arrays, each a whole buffer, as the buffers behind them at the windows' shares. -/
theorem arrays_shares0 (c : Dev nD) (dat : Dat τ (Elt F) Unit ℕ (UR sig nD τ) ℕ cfg0 c)
    (Fa : (w : Fin cfg0.W) → Buf (Elt F) ((cfg0.win w).arr.view.loc (c.tc : Thread nD τ))) :
    dat.arrays Fa = bigSep Finset.univ fun w => (((c.tc : Thread nD τ).loc (Pipeline.arrRef spec0 w)) ↦{dat.share w} Fa w : sProp 𝕄) := by
  unfold Dat.arrays
  exact bigSep_congr fun w _ => by rw [(arr_whole0 w).set_eq_univ]
theorem arrays_shares1 (c : Dev nD) (dat : Dat τ (Elt F) Unit ℕ (UR sig nD τ) ℕ cfg1 c)
    (Fa : (w : Fin cfg1.W) → Buf (Elt F) ((cfg1.win w).arr.view.loc (c.tc : Thread nD τ))) :
    dat.arrays Fa = bigSep Finset.univ fun w => (((c.tc : Thread nD τ).loc (Pipeline.arrRef spec1 w)) ↦{dat.share w} Fa w : sProp 𝕄) := by
  unfold Dat.arrays
  exact bigSep_congr fun w _ => by rw [(arr_whole1 w).set_eq_univ]

/-- REGION 0's arrays, dealt: the buffers behind them held outright at contents `V` are the windows' arrays at contents
    that agree with `V` — `main_v46`'s buffer half to window 0 and half to window 1, `main_v47`'s whole to window 2. -/
theorem deal0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c.tc : Thread nD τ).loc b))
    (Fa : (w : Fin cfg0.W) → Buf (Elt F) ((cfg0.win w).arr.view.loc (c.tc : Thread nD τ)))
    (h0 : Fa 0 = V main_v46) (h1 : Fa 1 = V main_v46) (h2 : Fa 2 = V main_v47) :
    (Pipeline.arrBufs (Ix := Unit) (Name := ℕ) (U := UR sig nD τ) (Lvl := ℕ) spec0 c V : sProp 𝕄) ⊣⊢ dat.arrays Fa := by
  rw [arrBufs0_eq, arrays_shares0, bigSep_W0, h0, h1, h2,
    share_in dat 0 rfl, share_in dat 1 rfl, share_out dat 2 rfl, hq0, hq1]
  exact ⟨(sep_mono_left (halves (F := F) (V main_v46)).1).trans sep_assoc.1,
    sep_assoc.2.trans (sep_mono_left (halves (F := F) (V main_v46)).2)⟩

theorem isIn1_0 : (cfg1.win 0).isOut = false := rfl
theorem isIn1_1 : (cfg1.win 1).isOut = false := rfl
theorem isIn1_2 : (cfg1.win 2).isOut = false := rfl
theorem isIn1_3 : (cfg1.win 3).isOut = false := rfl
theorem isOut1_4 : (cfg1.win 4).isOut = true := rfl

set_option maxHeartbeats 1000000 in
/-- REGION 1's arrays, dealt: `main_v46`'s buffer half to window 0 and half to window 2, `main_v47`'s half to window 1 and
    half to window 3, `main_v48`'s whole to window 4. -/
theorem deal1 (c : Dev nD) (dat : Dat τ (Elt F) Unit ℕ (UR sig nD τ) ℕ cfg1 c)
    (hq0 : dat.q 0 = fullShare.left) (hq2 : dat.q 2 = fullShare.right)
    (hq1 : dat.q 1 = fullShare.left) (hq3 : dat.q 3 = fullShare.right)
    (V : (b : Ref sig .tc) → Buf (Elt F) ((c.tc : Thread nD τ).loc b))
    (Fa : (w : Fin cfg1.W) → Buf (Elt F) ((cfg1.win w).arr.view.loc (c.tc : Thread nD τ)))
    (h0 : Fa 0 = V main_v46) (h1 : Fa 1 = V main_v47) (h2 : Fa 2 = V main_v46) (h3 : Fa 3 = V main_v47) (h4 : Fa 4 = V main_v48) :
    (Pipeline.arrBufs (Ix := Unit) (Name := ℕ) (U := UR sig nD τ) (Lvl := ℕ) spec1 c V : sProp 𝕄) ⊣⊢ dat.arrays Fa := by
  rw [arrBufs1_eq, arrays_shares1, bigSep_W1, h0, h1, h2, h3, h4,
    share_in dat 0 isIn1_0, share_in dat 1 isIn1_1, share_in dat 2 isIn1_2, share_in dat 3 isIn1_3, share_out dat 4 isOut1_4, hq0, hq1, hq2, hq3]
  -- (a ∗ b ∗ o) ⊣⊢ (aₗ ∗ bₗ ∗ aᵣ ∗ bᵣ ∗ o)
  refine ⟨((sep_mono_left (halves (F := F) (V main_v46)).1).trans (sep_mono_right (sep_mono_left (halves (F := F) (V main_v47)).1))).trans ?_,
    (?_ : _ ⊢ iprop(((((c.tc : Thread nD τ).loc main_v46) ↦{fullShare.left} V main_v46) ∗ (((c.tc : Thread nD τ).loc main_v46) ↦{fullShare.right} V main_v46))
        ∗ ((((c.tc : Thread nD τ).loc main_v47) ↦{fullShare.left} V main_v47) ∗ (((c.tc : Thread nD τ).loc main_v47) ↦{fullShare.right} V main_v47))
        ∗ (((c.tc : Thread nD τ).loc main_v48) ↦{fullShare} V main_v48))).trans
      ((sep_mono_left (halves (F := F) (V main_v46)).2).trans (sep_mono_right (sep_mono_left (halves (F := F) (V main_v47)).2)))⟩
  · iintro ⟨⟨Hal, Har⟩, ⟨Hbl, Hbr⟩, Hc⟩
    isplitl [Hal]; · iexact Hal
    isplitl [Hbl]; · iexact Hbl
    isplitl [Har]; · iexact Har
    isplitl [Hbr]; · iexact Hbr
    iexact Hc
  · iintro ⟨Hal, Hbl, Har, Hbr, Hc⟩
    isplitl [Hal Har]
    · isplitl [Hal]; · iexact Hal
      iexact Har
    isplitl [Hbl Hbr]
    · isplitl [Hbl]; · iexact Hbl
      iexact Hbr
    iexact Hc

/-! ## The buffers between @main's items

`Gen.V1` is every unscoped buffer after the host operations that build the adjacency matrix; region 0 changes
`main_v47` only (to the square), region 1 `main_v48` only (to the result). -/

variable (m : (ℓ : Loc nD τ sig) → Buf (Elt F) ℓ)

/-- Both regions' proof data, region 0's then region 1's. -/
abbrev PDats (F : FTy → Type) [FloatOps F] : Type :=
  (p : Fin 2) → (c : Dev nD) → Dat τ (Elt F) Unit ℕ (UR sig nD τ) ℕ (Pipeline.pin (pcfgs (F := F)) Gen.adm p) c

variable (pdats : PDats F)

/-- What each region leaves in the one array it writes: the write-backs of all its points folded into the array. -/
def outsOf : Gen.Outs (F := F) := fun n r c =>
  if h : n = 2 ∧ r = main_v47 then h.2 ▸ (show Buf (Elt F) ((c : Thread nD τ).loc main_v47) from (pdats 0 c).arrAt 2 cfg0.N)
  else if h : n = 3 ∧ r = main_v48 then h.2 ▸ (show Buf (Elt F) ((c : Thread nD τ).loc main_v48) from (pdats 1 c).arrAt 4 cfg1.N)
  else m ((c : Thread nD τ).loc r)

theorem outsOf_sq (c : Dev nD) : outsOf m pdats 2 main_v47 c = (pdats 0 c).arrAt 2 cfg0.N := by
  unfold outsOf; rw [dif_pos ⟨rfl, rfl⟩]
theorem outsOf_res (c : Dev nD) : outsOf m pdats 3 main_v48 c = (pdats 1 c).arrAt 4 cfg1.N := by
  unfold outsOf; rw [dif_neg (by decide), dif_pos ⟨rfl, rfl⟩]

/-- The unscoped buffers as region 0 finds them, as region 1 finds them, and at the end, read at a reference. -/
abbrev Vin0 (c : Dev nD) (b : Ref sig .tc) : Buf (Elt F) ((c : Thread nD τ).loc b) := Gen.V1 m c b
abbrev Vin1 (c : Dev nD) (b : Ref sig .tc) : Buf (Elt F) ((c : Thread nD τ).loc b) := Gen.V2 m (outsOf m pdats) c b
abbrev Vend (c : Dev nD) (b : Ref sig .tc) : Buf (Elt F) ((c : Thread nD τ).loc b) := Gen.V3 m (outsOf m pdats) c b

theorem Vin1_sq (c : Dev nD) : Vin1 m pdats c main_v47 = (pdats 0 c).arrAt 2 cfg0.N := by
  show Function.update (Gen.V1 m c) (Proc.devRef .tc main_v47) (outsOf m pdats 2 main_v47 c) (Proc.devRef .tc main_v47) = _
  rw [Function.update_self, outsOf_sq]
theorem Vin1_of_ne (c : Dev nD) (b : Ref sig .tc) (h : b ∉ ([main_v47] : List (Ref sig .tc))) : Vin1 m pdats c b = Vin0 m c b :=
  Gen.V2_of m (outsOf m pdats) c b h
theorem Vend_res (c : Dev nD) : Vend m pdats c main_v48 = (pdats 1 c).arrAt 4 cfg1.N := by
  show Function.update (Gen.V2 m (outsOf m pdats) c) (Proc.devRef .tc main_v48) (outsOf m pdats 3 main_v48 c) (Proc.devRef .tc main_v48) = _
  rw [Function.update_self, outsOf_res]
theorem Vend_of_ne (c : Dev nD) (b : Ref sig .tc) (h : b ∉ ([main_v48] : List (Ref sig .tc))) : Vend m pdats c b = Vin1 m pdats c b :=
  Gen.V3_of m (outsOf m pdats) c b h

/-! ## The regions as segments of @main -/

/-- No core owes another anything: no level is assigned. -/
abbrev L0 : GSem nD τ sig → Finset Unit := fun _ => ∅
abbrev lv0 : GSem nD τ sig → Unit → ℕ := fun _ _ => 0

/-- What rides beside the buffers through every item: the core's generator register at some state and its dues, none. -/
abbrev Rd (c : Dev nD) : sProp 𝕄 := iprop((∃ r, prngReg c r) ∗ ∃ W, owes (c : Thread nD τ) (0 : CellTallies nD τ sig Unit) W)

/-- What the glue asks of the two regions' proof data: the arrays at entry are the buffers as the region finds them;
    the share of each array read through two windows is dealt between them; the body obligation; the class invariant
    in and out; nothing owed. -/
structure DataFacts : Prop where
  A0 : ∀ c w, (pdats 0 c).A w = Vin0 m c (Pipeline.arrRef spec0 w)
  A1 : ∀ c w, (pdats 1 c).A w = Vin1 m pdats c (Pipeline.arrRef spec1 w)
  q0_0 : ∀ c, (pdats 0 c).q 0 = fullShare.left
  q0_1 : ∀ c, (pdats 0 c).q 1 = fullShare.right
  q1_0 : ∀ c, (pdats 1 c).q 0 = fullShare.left
  q1_2 : ∀ c, (pdats 1 c).q 2 = fullShare.right
  q1_1 : ∀ c, (pdats 1 c).q 1 = fullShare.left
  q1_3 : ∀ c, (pdats 1 c).q 3 = fullShare.right
  body0 : ∀ c, BodyObligation (pdats 0 c) (defs₀ (F := F)) Variants.none () Set.univ
  body1 : ∀ c, BodyObligation (pdats 1 c) (defs₀ (F := F)) Variants.none () Set.univ
  in0 : ∀ c, Pipeline.ΦA spec0 c ⊢ (pdats 0 c).Φ 0
  in1 : ∀ c, Pipeline.ΦA spec1 c ⊢ (pdats 1 c).Φ 0
  out0 : ∀ c, (pdats 0 c).Φ (Fin.last cfg0.N) ⊢ Pipeline.ΦA spec0 c
  out1 : ∀ c, (pdats 1 c).Φ (Fin.last cfg1.N) ⊢ Pipeline.ΦA spec1 c
  owed0 : ∀ c t, (pdats 0 c).owed t = 0
  owed1 : ∀ c t, (pdats 1 c).owed t = 0
  rec0 : ∀ c t, (pdats 0 c).recorded t = Set.univ
  rec1 : ∀ c t, (pdats 1 c).recorded t = Set.univ

variable {m pdats}

set_option backward.isDefEq.respectTransparency.types false in
/-- REGION 0, entered from every unscoped buffer at `Gen.V1` and left with `main_v47` at what its write-backs leave. -/
def reg0 (hd : DataFacts m pdats) : Pipeline.RegionSeg (pcfgs (F := F)) Gen.adm pdats () defs₀ Variants.none L0 lv0 0 where
  win := winFacts₀0
  block_pos := block_pos0
  stage_whole := stage_whole0
  K := PEmpty
  osem k := k.elim
  ho := Pipeline.OwnSemFacts.none _
  hbody c := (hd.body0 c).loose
  hwaits := Pipeline.hwaits_of_owed_zero _ _ _ _ L0 lv0 0 hd.owed0
  pre c := iprop(StableHlo.held (c : Thread nD τ) (Pipeline.ucRefs τ sig) (Gen.V1 m c) ∗ Rd c)
  post c := iprop(StableHlo.held (c : Thread nD τ) (Pipeline.ucRefs τ sig) (Gen.V2 m (outsOf m pdats) c) ∗ Rd c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs c (Vin0 m c) : sProp 𝕄)
        ⊢ iprop((pdats 0 c).arrays ((pdats 0 c).arrAt · 0) ∗ Pipeline.unscopedRest spec0 c (Vin0 m c)) := by
      rw [Pipeline.unscopedBufs_split₀ cfgs 0 winFacts₀0.arr_unscoped c (Vin0 m c)]
      exact sep_mono_left (deal0 c (pdats 0 c) (hd.q0_0 c) (hd.q0_1 c) (Vin0 m c) _ (hd.A0 c 0) (hd.A0 c 1) (hd.A0 c 2)).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hd.rec0 c 0]; trivial)
      rw [hd.owed0 c 0]; iexact HO
    isplitl [Hp]; · iexact Hp
    iexact Hrest
  hin c := by
    refine (?_ : _ ⊢ Pipeline.ΦA spec0 c).trans (hd.in0 c)
    unfold Pipeline.ΦA
    iintro ⟨Hp, -, Hr⟩
    isplitl [Hr]; · iexact Hr
    iexact Hp
  hout c := by
    rw [Pipeline.ownSems0_none]
    refine (hd.out0 c).trans ?_
    unfold Pipeline.ΦA
    iintro ⟨Hr, Hp⟩
    isplitl [Hp]; · iexact Hp
    isplitr; · iempintro
    iexact Hr
  hexit c := by
    have hjoin : iprop((pdats 0 c).arrays ((pdats 0 c).arrAt · cfg0.N) ∗ Pipeline.unscopedRest spec0 c (Vin0 m c))
        ⊢ (unscopedBufs c (Vin1 m pdats c) : sProp 𝕄) := by
      rw [Pipeline.unscopedBufs_split₀ cfgs 0 winFacts₀0.arr_unscoped c (Vin1 m pdats c)]
      have hrest : (Pipeline.unscopedRest (Ix := Unit) (Name := ℕ) (U := UR sig nD τ) (Lvl := ℕ) spec0 c (Vin0 m c) : sProp 𝕄)
          = Pipeline.unscopedRest spec0 c (Vin1 m pdats c) := by
        unfold Pipeline.unscopedRest
        exact bigSep_congr fun b hb => by
          rw [Vin1_of_ne m pdats c b (fun h => (Finset.mem_sdiff.mp hb).2 (by rw [img0]; rw [List.mem_singleton.mp h]; decide))]
      rw [hrest]
      exact sep_mono_left (deal0 c (pdats 0 c) (hd.q0_0 c) (hd.q0_1 c) (Vin1 m pdats c) _
        (((pdats 0 c).arrAt_in 0 rfl _).trans ((hd.A0 c 0).trans (Vin1_of_ne m pdats c main_v46 (by decide)).symm))
        (((pdats 0 c).arrAt_in 1 rfl _).trans ((hd.A0 c 1).trans (Vin1_of_ne m pdats c main_v46 (by decide)).symm))
        (Vin1_sq m pdats c).symm).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [hd.owed0 c (Fin.last _)]; iexact HO

set_option backward.isDefEq.respectTransparency.types false in
/-- REGION 1, entered from the buffers as region 0 leaves them and left with `main_v48` at what its write-backs leave. -/
def reg1 (hd : DataFacts m pdats) : Pipeline.RegionSeg (pcfgs (F := F)) Gen.adm pdats () defs₀ Variants.none L0 lv0 1 where
  win := winFacts₀1
  block_pos := block_pos1
  stage_whole := stage_whole1
  K := PEmpty
  osem k := k.elim
  ho := Pipeline.OwnSemFacts.none _
  hbody c := (hd.body1 c).loose
  hwaits := Pipeline.hwaits_of_owed_zero _ _ _ _ L0 lv0 1 hd.owed1
  pre c := iprop(StableHlo.held (c : Thread nD τ) (Pipeline.ucRefs τ sig) (Gen.V2 m (outsOf m pdats) c) ∗ Rd c)
  post c := iprop(StableHlo.held (c : Thread nD τ) (Pipeline.ucRefs τ sig) (Gen.V3 m (outsOf m pdats) c) ∗ Rd c)
  X c := iprop(∃ r, prngReg c r)
  Y c := iprop(∃ r, prngReg c r)
  Z c := Pipeline.unscopedRest (Ix := Unit) (Name := ℕ) (U := UR sig nD τ) (Lvl := ℕ) spec1 c (Vin1 m pdats c)
  hentry c := by
    rw [Pipeline.ownSems0_none]
    have hsplit : (unscopedBufs c (Vin1 m pdats c) : sProp 𝕄)
        ⊢ iprop((pdats 1 c).arrays ((pdats 1 c).arrAt · 0) ∗ Pipeline.unscopedRest spec1 c (Vin1 m pdats c)) := by
      rw [Pipeline.unscopedBufs_split₀ cfgs 1 winFacts₀1.arr_unscoped c (Vin1 m pdats c)]
      exact sep_mono_left (deal1 c (pdats 1 c) (hd.q1_0 c) (hd.q1_2 c) (hd.q1_1 c) (hd.q1_3 c) (Vin1 m pdats c) _
        (hd.A1 c 0) (hd.A1 c 1) (hd.A1 c 2) (hd.A1 c 3) (hd.A1 c 4)).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hd.rec1 c 0]; trivial)
      rw [hd.owed1 c 0]; iexact HO
    isplitl [Hp]; · iexact Hp
    iexact Hrest
  hin c := by
    refine (?_ : _ ⊢ Pipeline.ΦA spec1 c).trans (hd.in1 c)
    unfold Pipeline.ΦA
    iintro ⟨Hp, -, Hr⟩
    isplitl [Hr]; · iexact Hr
    iexact Hp
  hout c := by
    rw [Pipeline.ownSems0_none]
    refine (hd.out1 c).trans ?_
    unfold Pipeline.ΦA
    iintro ⟨Hr, Hp⟩
    isplitl [Hp]; · iexact Hp
    isplitr; · iempintro
    iexact Hr
  hexit c := by
    have hjoin : iprop((pdats 1 c).arrays ((pdats 1 c).arrAt · cfg1.N) ∗ Pipeline.unscopedRest spec1 c (Vin1 m pdats c))
        ⊢ (unscopedBufs c (Vend m pdats c) : sProp 𝕄) := by
      rw [Pipeline.unscopedBufs_split₀ cfgs 1 winFacts₀1.arr_unscoped c (Vend m pdats c)]
      have hrest : (Pipeline.unscopedRest (Ix := Unit) (Name := ℕ) (U := UR sig nD τ) (Lvl := ℕ) spec1 c (Vin1 m pdats c) : sProp 𝕄)
          = Pipeline.unscopedRest spec1 c (Vend m pdats c) := by
        unfold Pipeline.unscopedRest
        exact bigSep_congr fun b hb => by
          rw [Vend_of_ne m pdats c b (fun h => (Finset.mem_sdiff.mp hb).2 (by
            rw [img1, List.mem_singleton.mp h]; simp only [Finset.mem_insert, Finset.mem_singleton, or_true]))]
      rw [hrest]
      exact sep_mono_left (deal1 c (pdats 1 c) (hd.q1_0 c) (hd.q1_2 c) (hd.q1_1 c) (hd.q1_3 c) (Vend m pdats c) _
        (((pdats 1 c).arrAt_in 0 isIn1_0 _).trans ((hd.A1 c 0).trans (Vend_of_ne m pdats c main_v46 (by decide)).symm))
        (((pdats 1 c).arrAt_in 1 isIn1_1 _).trans ((hd.A1 c 1).trans (Vend_of_ne m pdats c main_v47 (by decide)).symm))
        (((pdats 1 c).arrAt_in 2 isIn1_2 _).trans ((hd.A1 c 2).trans (Vend_of_ne m pdats c main_v46 (by decide)).symm))
        (((pdats 1 c).arrAt_in 3 isIn1_3 _).trans ((hd.A1 c 3).trans (Vend_of_ne m pdats c main_v47 (by decide)).symm))
        (Vend_res m pdats c).symm).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [hd.owed1 c (Fin.last _)]; iexact HO

/-! ## The run, with the result named

The library's theorem for a program of several regions, applied to @main's three items (the host operations, region 0,
region 1) over the thread states above; at the end every unscoped buffer is read off the last valuation, the result
array `main_v48` among them. -/

variable (ρ : Dev nD → PrngReg)

theorem Vend_arg0 (c : Dev nD) : Vend m pdats c main_arg0 = m ((c : Thread nD τ).loc main_arg0) := Gen.V3_main_arg0 m (outsOf m pdats) c
theorem Vend_arg1 (c : Dev nD) : Vend m pdats c main_arg1 = m ((c : Thread nD τ).loc main_arg1) := Gen.V3_main_arg1 m (outsOf m pdats) c
theorem Vend_arg2 (c : Dev nD) : Vend m pdats c main_arg2 = m ((c : Thread nD τ).loc main_arg2) := Gen.V3_main_arg2 m (outsOf m pdats) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting; the result array
    ends at what region 1's write-backs leave in it, and the three argument arrays end as launched. -/
theorem run_of_data (hd : DataFacts m pdats) :
    θ_run defs (onTc (τ := τ) (main (F := F))) ⟨m, fun _ => 0, ρ⟩ (fun r => ∀ c : Dev nD,
      r.2.mem ((c.tc : Thread nD τ).loc main_v48) = (pdats 1 c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm pdats () cellOf_inj emb₁ defs₀ Variants.none L0 lv0 m ρ main
    (Gen.segs m Variants.none L0 lv0 (fun _ c => Rd c) () pdats (reg0 hd) (reg1 hd))
    (fun c Q => by
      rewrite [main_chain c, Pipeline.Seg.run_eq_chain,
        show (Gen.segs m Variants.none L0 lv0 (fun _ c => Rd c) () pdats (reg0 hd) (reg1 hd) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rd c))
    (Tₙ := fun c => iprop(StableHlo.held (c : Thread nD τ) (Pipeline.ucRefs τ sig) (Gen.V3 m (outsOf m pdats) c) ∗ ∃ r, prngReg c r))
    (hch := fun c => ⟨.rfl, .rfl, .rfl, sep_assoc.2⟩)
    (hinit := ?_)
    (QY := fun c s => ∀ b ∈ Pipeline.ucRefs τ sig, s.mem (((c : Thread nD τ)).1, b) = Gen.V3 m (outsOf m pdats) c b)
    (hfin := fun c s' => ?_)
    (hQ := fun s h c => ⟨(h c _ (mem_uc main_v48 (by decide))).trans (Vend_res m pdats c),
      (h c _ (mem_uc main_arg0 (by decide))).trans (Vend_arg0 c),
      (h c _ (mem_uc main_arg1 (by decide))).trans (Vend_arg1 c),
      (h c _ (mem_uc main_arg2 (by decide))).trans (Vend_arg2 c)⟩)
  · refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (Gen.V3 m (outsOf m pdats) c) s')
    isplitl [Hh] <;> iassumption

/-- The frame alone: the arguments end as launched. -/
theorem frame_of_data (hd : DataFacts m pdats) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_of_data ρ hd)

end Cert.Kernel.Hand
end
-- ==== Proof.Bits.R0Runs.lean ====
import proofs.«163472_j66348654788876_2_alg».proof.Proof.Gen.Kernel.Launch
import proofs.«163472_j66348654788876_2_alg».proof.Proof.Gen.Kernel.Skeleton
import proofs.«163472_j66348654788876_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 1024 x 1024 extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matmul, grid 8 x 8 x 8, reduction over the last axis): what its three control cases share

Everything is stated at a parameter `V`: the TensorCore's buffer contents when the region is entered. -/

section
variable (V : (c : Dev nD) → (b : Ref sig .tc) → Buf (Elt F) ((c : Thread nD τ).loc b))

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block (i, k) at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 and its block (k, j). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- The condition of the body's first conditional, from the grid coordinates: the reduction index `k` (the last
    coordinate) is 0. -/
abbrev cond0_0 (i : grid0.Coords) : Prop := (Scalar.cmpi .ne (Scalar.extui (Scalar.cmpi .eq (BitVec.ofNat 32 (i 2).val) 0#32)) 0#32) = 1#1
/-- It holds at the points ≡ 0 (mod 8): `k` is the point number modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional: `k` is 7, the last reduction step. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points with `k = 0` the output window 2 is idle: nothing is stored into it, -/
theorem idleAt0_2_A : ∀ t : Fin cfg0.N, cond0_0 (grid0.coords t) → ¬cond0_1 (grid0.coords t) → cfg0.idle 2 (grid0.coords t) = true := by decide +kernel
/-- and its block is not written back there. -/
theorem noFlush0_2_A : ∀ t : Fin cfg0.N, cond0_0 (grid0.coords t) → ¬cond0_1 (grid0.coords t) → (cfg0.win 2).flush t = false := by decide +kernel
/-- The same at the points with `0 < k < 7`. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the points with `k = 7` the output window 2 is live: the accumulator is rounded and stored into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of output window 2, through which its contents are stated (reading back a covering list of
    writes does not depend on the choice). -/
abbrev VO0_2 : View sig .tc .vmem S1024x1024 .bf16 := (Memref.whole cc0_stg2_0 : Memref sig .tc .vmem S1024x1024 .bf16).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The f32 accumulator: a whole scoped buffer of the kernel's own, passed beside the windows. -/
abbrev scM0_0 : Memref sig .tc .vmem S1024x1024 .f32 := Memref.whole cc0_scratch0
/-- The accumulator as a view: what it holds between points is stated through it. -/
abbrev VS0_0 : View sig .tc .vmem S1024x1024 .f32 := scM0_0.view

/-! ## The region invariant, with the accumulator as a memref -/

/-- The core's scoped buffers that region 0 neither stages nor accumulates in (the second matmul's staging buffers and
    accumulator), each whole at some contents: the body never touches them. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f))

/-- The region's invariant at entry: the accumulator owned at some contents, the other scoped buffers, the generator
    register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Hand

end
-- ==== Proof.Bits.R0RunA.lean ====
import proofs.«163472_j66348654788876_2_alg».proof.Proof.Bits.R0Runs

-- membership in a rectangle of 1024 x 1024 extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body at a point with `k = 0` (first conditional taken, second not). On whole memrefs — the two input blocks at
    contents `x0`, `x1`; the output's staging buffer at contents `xi2`, handed back untouched; the accumulator at
    ANYTHING (it is loaded before it is overwritten, and the loaded value is discarded) — the body runs to the
    continuation holding the inputs as they were and the accumulator with the pieces `LS0` written, last first: the
    product added to the zeroed accumulator, over the zero fill. The pieces are the witness the symbolic run finds. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨[], ?_, fun xi2 E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R0RunB.lean ====
import proofs.«163472_j66348654788876_2_alg».proof.Proof.Bits.R0RunA

-- membership in a rectangle of 1024 x 1024 extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body at a point with `0 < k < 7` (neither conditional taken). On whole memrefs — the two input blocks at
    contents `x0`, `x1`; the output's staging buffer at contents `xi2`, handed back untouched; the accumulator at the
    contents `xs0` the point before left — the body runs to the continuation holding the inputs as they were and the
    accumulator with the pieces `LS0` written: the product added to `xs0`. The pieces are the witness the symbolic run
    finds. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨[], ?_, fun xi2 E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.Bits.R0RunC.lean ====
import proofs.«163472_j66348654788876_2_alg».proof.Proof.Bits.R0RunB

-- membership in a rectangle of 1024 x 1024 extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body at a point with `k = 7` (first conditional not taken, second taken). On whole memrefs — the two input
    blocks at contents `x0`, `x1`; the output's staging buffer at ANYTHING; the accumulator at the contents `xs0` the
    point before left — the body runs to the continuation holding the inputs as they were, the accumulator with the
    pieces `LS0` written (the product added to `xs0`) and the output's buffer with the pieces `L2` written (that sum
    rounded to bf16). The pieces are the witness the symbolic run finds. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, ?_, fun E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.Bits.R0Data.lean ====
import proofs.«163472_j66348654788876_2_alg».proof.Proof.Bits.R0RunC

-- membership in a rectangle of 1024 x 1024 extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the accumulator and the output hold point by point, the proof data, the body obligation -/

/-! ## What each case leaves -/

/-- At `k = 0` nothing is stored into output 2 (the window is idle there and not written back): no pieces — a
    placeholder nothing consults, since at these points the window is neither written back nor read at the next. -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .bf16 :=
  VO0_2.read (Elt F) (VO0_2.writes (Elt F) VO0_2.junk (kernelRun0_A c i arg3 harg3 arg4 harg4 arg5 harg5 arg6 harg6 hc0 hc1 x0 x1).1)

/-- At `k = 0` the pieces written into the accumulator cover it: each of the two stores is the whole 1024 x 1024 tile. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What a point with `k = 0` leaves in the accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- At `0 < k < 7` nothing is stored into output 2 either: the same placeholder. -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)

/-- At `0 < k < 7` the one store into the accumulator is the whole tile. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What a point with `0 < k < 7` leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- At `k = 7` the one store into output 2's staging buffer is the whole tile, so it covers the block. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What a point with `k = 7` leaves in output 2's staging buffer: the accumulated sum rounded to bf16. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)

/-- At `k = 7` the one store into the accumulator is the whole tile. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What a point with `k = 7` leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-! ## What the output's buffer and the accumulator hold after each point -/

/-- THE ACCUMULATION. What output 2's staging buffer and the accumulator hold after the body at position `n` (a pair):
    the case `n mod 8` selects, run at the point's memrefs and input blocks; for `k ≠ 0` the accumulator starts from
    what position `n - 1` left. (`k = 0` and `k = 7` at once is no case.) -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point with `k = 0`: that case's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point with `0 < k < 7`: that case's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with `k = 7`: that case's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the entry invariant (the accumulator at anything);
    afterwards the accumulator at what the point before left in it, the other scoped buffers at anything and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

variable (qs : Fin 3 → PosShare TreeShare)

/-- The proof data of region 0 on core `c`: the arrays as the region finds them (`V`); after the body at point `t`
    each input's buffer at its block and the output's at `outsAt0`'s first component; the invariant `PhiS0`; nothing
    owed; the input windows' shares `qs`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := qs
  owed _ := 0

/-- The proof data's arrays are the region-entry contents. -/
theorem A_eq0 (c : Dev nD) (w : Fin cfg0.W) : (dat0 V qs c).A w = V c (Pipeline.arrRef spec0 w) := by
  dsimp only [dat0]

/-- The invariant at a point's start, restated at `t.val`. -/
theorem PhiS0_castSucc (c : Dev nD) (t : Fin cfg0.N) :
    (dat0 V qs c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V qs c).after 0 t = iblk0 V c 0 t := by dsimp only [dat0]
theorem after0_1 (c : Dev nD) (t : Fin cfg0.N) : (dat0 V qs c).after 1 t = iblk0 V c 1 t := by dsimp only [dat0]
theorem after0_2 (c : Dev nD) (t : Fin cfg0.N) : (dat0 V qs c).after 2 t = (outsAt0 V c t.val t.isLt).1 := by dsimp only [dat0]

/-- Each input's current staging buffer holds its block at every point, fetched there or not. -/
theorem before0_0 (c : Dev nD) (t : Fin cfg0.N) (d) : (dat0 V qs c).before 0 t d = iblk0 V c 0 t :=
  before0_0_of V (dat0 V qs c) (A_eq0 V qs c 0) (after0_0 V qs c) t d
theorem before0_1 (c : Dev nD) (t : Fin cfg0.N) (d) : (dat0 V qs c).before 1 t d = iblk0 V c 1 t :=
  before0_1_of V (dat0 V qs c) (A_eq0 V qs c 1) (after0_1 V qs c) t d

/-! ## The body obligation, at a generic point -/

/-- What the body is called with at point `t`, the windows one by one, -/
def bodyPre0 (c : Dev nD) (t : Fin cfg0.N) : sProp 𝕄 :=
  iprop((dat0 V qs c).Φ t.castSucc ∗ (dat0 V qs c).owesAt () t.castSucc
    ∗ (∃ d, owns (c : Thread nD τ) (ms0_0 t) fullShare ((dat0 V qs c).before 0 t d))
    ∗ (∃ d, owns (c : Thread nD τ) (ms0_1 t) fullShare ((dat0 V qs c).before 1 t d))
    ∗ (∃ d, owns (c : Thread nD τ) (ms0_2 t) fullShare ((dat0 V qs c).before 2 t d)))

/-- and what it returns. -/
def bodyPost0 (c : Dev nD) (t : Fin cfg0.N) : sProp 𝕄 :=
  iprop((dat0 V qs c).Φ t.succ ∗ (dat0 V qs c).owesAt () t.succ
    ∗ (dat0 V qs c).leavesExact 0 t
    ∗ (dat0 V qs c).leavesExact 1 t
    ∗ (dat0 V qs c).leavesExact 2 t)

set_option maxHeartbeats 4800000 in
/-- The body at any point. The inputs' memrefs hold their blocks; `t mod 8` says which case the point is in, so that
    case's run applies. The invariant hands the body the accumulator at what the point before left (at anything at the
    grid's first point; at a later point with `k = 0` the named contents are forgotten, the case not reading them) and
    takes it back at this point's contents, its pieces covering it. Where the output is idle its buffer comes back as
    found; at `k = 7` it comes back at the pieces read back, which cover it. The core owes nothing throughout. -/
theorem sound_body0 (c : Dev nD) (t : Fin cfg0.N) :
    bodyPre0 V qs c t ⊢ wp frame (wpE (defs₀ (F := F)) Variants.none c none) Set.univ (bodyAt0 t) (fun _ => bodyPost0 V qs c t) := by
  unfold bodyPre0 bodyPost0 bodyAt0
  simp only [before0_0, before0_1]
  rw [show (dat0 V qs c).owesAt () t.succ = (dat0 V qs c).owesAt () t.castSucc from rfl]
  rw [show (dat0 V qs c).Φ t.succ = PhiS0 V c (t.val + 1) t.isLt from rfl, PhiS0_succ]
  by_cases h0 : t.val % 8 = 0
  · by_cases h1 : t.val % 8 = 7
    · exfalso; omega
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [Dat.leavesExact_idle (dat0 V qs c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V qs c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V qs c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by omega)
    by_cases h1 : t.val % 8 = 7
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V qs c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [Dat.leavesExact_idle (dat0 V qs c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V qs c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation of region 0, at every point. -/
theorem body_obligation0 (c : Dev nD) : BodyObligation (dat0 (F := F) V qs c) (defs₀ (F := F)) Variants.none () Set.univ := fun t => by
  rw [bigSep_W0, bigSep_W0]
  exact sound_body0 V qs c t

/-- What the launch hands the region is the invariant before the first point. -/
theorem hin0 (c : Dev nD) : Pipeline.ΦA spec0 c ⊢ (dat0 V qs c).Φ 0 := by
  rw [show (dat0 V qs c).Φ 0 = PhiS0 V c 0 (Nat.zero_le _) from rfl, PhiS0_zero V c 0 _ rfl]
  try exact Idealize.SL.BI.Entails.refl _

/-- After any point but the first the invariant gives the entry invariant back: the accumulator's named contents are
    forgotten. -/
theorem Phi_out0 (c : Dev nD) (t : Fin (cfg0.N + 1)) (ht : t.val ≠ 0) : (dat0 V qs c).Φ t ⊢ Pipeline.ΦA spec0 c := by
  rw [show (dat0 V qs c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V qs c).Φ (Fin.last cfg0.N) ⊢ Pipeline.ΦA spec0 c :=
  Phi_out0 V qs c _ (by rw [Fin.val_last]; have : cfg0.N = 512 := N_0; omega)

end

end Cert.Kernel.Hand

end
-- ==== Proof.Bits.R1Runs.lean ====
import proofs.«163472_j66348654788876_2_alg».proof.Proof.Gen.Kernel.Launch
import proofs.«163472_j66348654788876_2_alg».proof.Proof.Gen.Kernel.Skeleton
import proofs.«163472_j66348654788876_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # Region 1 of @main: custom_call 1, `cc1__matmul2_fused_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (the reduction index is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 32) — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's second `scf.if` (the reduction index is 31, the last), from the grid coordinates. -/
abbrev cond1_1 (i : grid1.Coords) : Prop := k1_cond2 i = 1#1
/-- It holds at the points ≡ 31 (mod 32) — decided over the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

/-- Windows 0 to 3 are never idle (inputs). -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- At the points of case A output 4 is idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B output 4 is idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C output 4 is live: the case stores into it. -/
theorem liveAt1_4_C : ∀ t : Fin cfg1.N, ¬cond1_0 (grid1.coords t) → cond1_1 (grid1.coords t) → cfg1.idle 4 (grid1.coords t) = false := by decide +kernel

/-! ## The kernel body on any staging memrefs -/

/-- One staging buffer of output window 4, through which its contents are stated (the choice does not matter). -/
abbrev VO1_4 : View sig .tc .vmem S1024x1024 .f32 := (Memref.whole cc1_stg4_0 : Memref sig .tc .vmem S1024x1024 .f32).view
/-- Each window's current staging memref at point `t`, spelled as the pipeline passes it, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The scratch operand: a whole scoped buffer of the kernel's own, passed beside the windows. -/
abbrev scM1_0 : Memref sig .tc .vmem S1024x1024 .f32 := Memref.whole cc1_scratch0
/-- The scratch the kernel carries between points (the accumulator), as a view: what it holds is stated through it. -/
abbrev VS1_0 : View sig .tc .vmem S1024x1024 .f32 := scM1_0.view

/-- The region's invariant with the scratch operand as a memref owned at some contents, the other scoped buffers
    (the other call's staging and scratch) each whole at some contents: what the body obligation hands the run and
    takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.Bits.R1RunA.lean ====
import proofs.«163472_j66348654788876_2_alg».proof.Proof.Bits.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in
    case A (the reduction index is 0: the first `scf.if` taken, the second not), with the proof that on whole staging
    memrefs — the inputs' at their contents, the output's (idle: no store) at contents `xi4` handed back untouched, the
    accumulator at anything (it is zeroed before it is read) — the body runs to the continuation holding the inputs' as
    they were and the accumulator with its pieces written. The pieces are the witness the run finds. -/
noncomputable def kernelRun1_A (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8) K } := by
  refine ⟨[], ?_, fun xi4 E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.Bits.R1RunB.lean ====
import proofs.«163472_j66348654788876_2_alg».proof.Proof.Bits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same in case B (the reduction index is neither 0 nor 31: neither `scf.if` taken): the accumulator is found at
    the contents `xs0` the point before left, the output's buffer (idle) handed back untouched. -/
noncomputable def kernelRun1_B (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8) K } := by
  refine ⟨[], ?_, fun xi4 E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.Bits.R1RunC.lean ====
import proofs.«163472_j66348654788876_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same in case C (the reduction index is 31, the last: the first `scf.if` not taken, the second taken): the
    accumulator is found at the contents `xs0` the point before left, the output's buffer at anything and left with its
    pieces written. -/
noncomputable def kernelRun1_C (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8) K } := by
  refine ⟨?_, ?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.Bits.R1Data.lean ====
import proofs.«163472_j66348654788876_2_alg».proof.Proof.Bits.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output and in the accumulator -/

/-- Case A stores nothing into output 4 (the window is idle at its points and not written back there): no pieces —
    a placeholder (junk read back) that nothing consults, since at these points the window is neither written back nor
    read at the next point. -/
def out1_A_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for the accumulator, which the kernel carries between points, cover it: 2 pieces, each of the whole shape. -/
theorem scover1_A_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- What case A leaves in the accumulator: its pieces read back over junk. -/
def sout1_A_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Case B stores nothing into output 4 (the window is idle at its points and not written back there): no pieces —
    a placeholder (junk read back) that nothing consults, since at these points the window is neither written back nor
    read at the next point. -/
def out1_B_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for the accumulator, which the kernel carries between points, cover it: 1 piece of the whole shape. -/
theorem scover1_B_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- What case B leaves in the accumulator: its pieces read back over junk. -/
def sout1_B_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Case C's pieces for output 4 tile its block (one store of the whole shape), so they cover it. -/
theorem cover1_C_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out1_C_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for the accumulator, which the kernel carries between points, cover it: 1 piece of the whole shape. -/
theorem scover1_C_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- What case C leaves in the accumulator: its pieces read back over junk. -/
def sout1_C_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

section Region1
-- the TensorCore's buffer contents when the region is entered, and the share held of each window's array
variable (V : (c : Dev nD) → (b : Ref sig .tc) → Buf (Elt F) ((c : Thread nD τ).loc b))
variable (qs : Fin 5 → PosShare TreeShare)

/-! ## What the output and the accumulator hold after each point -/

/-- THE ACCUMULATION. What output 4's staging buffer and the accumulator hold after the body at position `n` (a pair: the
    output, then the accumulator): the case the closed forms select at `n`, run at the point's memrefs and input blocks, the
    accumulator it reads at what this leaves at `n - 1`. An assignment of the conditions no point meets is no case. -/
def outsAt1 (c : Dev nD) : (n : ℕ) → n < cfg1.N → Vec F S1024x1024 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 32 = 0 then
      if h1 : (n + 1) % 32 = 31 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 32 = 31 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 32 = 0) (h1 : ¬t.val % 32 = 31) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 32 = 0) (h1 : ¬t.val % 32 = 31) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 32 = 0) (h1 : t.val % 32 = 31) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the accumulator being carried between points: before the first point the
    launch's (every scoped buffer at anything); afterwards the same with the accumulator at what the point before left in
    it (`outsAt1`'s second component), and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed;
    the shares `qs`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := qs
  owed _ := 0

/-- The proof data's arrays are the region-entry contents (the definition projected, so that `V` is never unfolded). -/
theorem A_eq1 (c : Dev nD) (w : Fin cfg1.W) : (dat1 V qs c).A w = V c (Pipeline.arrRef spec1 w) := by
  dsimp only [dat1]

/-- The invariant at a point's start (the proof data at `t.castSucc`), restated at `t.val`. -/
theorem PhiS1_castSucc (c : Dev nD) (t : Fin cfg1.N) :
    (dat1 V qs c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = iblk1 V c 3 t := by dsimp only [dat1]
theorem after1_4 (c : Dev nD) (t : Fin cfg1.N) : (dat1 V qs c).after 4 t = (outsAt1 V c t.val t.isLt).1 := by dsimp only [dat1]

/-- Each input's current staging buffer holds its block at every point, fetched there or not. -/
theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d
theorem before1_3 (c : Dev nD) (t : Fin cfg1.N) (d) : (dat1 V qs c).before 3 t d = iblk1 V c 3 t :=
  before1_3_of V (dat1 V qs c) (A_eq1 V qs c 3) (after1_3 V qs c) t d

/-! ## The body obligation, at a generic point -/

/-- What the body is called with at point `t` (the body obligation's precondition, the windows one by one), -/
def bodyPre1 (c : Dev nD) (t : Fin cfg1.N) : sProp 𝕄 :=
  iprop((dat1 V qs c).Φ t.castSucc ∗ (dat1 V qs c).owesAt () t.castSucc
    ∗ (∃ d, owns (c : Thread nD τ) (ms1_0 t) fullShare ((dat1 V qs c).before 0 t d))
    ∗ (∃ d, owns (c : Thread nD τ) (ms1_1 t) fullShare ((dat1 V qs c).before 1 t d))
    ∗ (∃ d, owns (c : Thread nD τ) (ms1_2 t) fullShare ((dat1 V qs c).before 2 t d))
    ∗ (∃ d, owns (c : Thread nD τ) (ms1_3 t) fullShare ((dat1 V qs c).before 3 t d))
    ∗ (∃ d, owns (c : Thread nD τ) (ms1_4 t) fullShare ((dat1 V qs c).before 4 t d)))

/-- and what it returns. -/
def bodyPost1 (c : Dev nD) (t : Fin cfg1.N) : sProp 𝕄 :=
  iprop((dat1 V qs c).Φ t.succ ∗ (dat1 V qs c).owesAt () t.succ
    ∗ (dat1 V qs c).leavesExact 0 t
    ∗ (dat1 V qs c).leavesExact 1 t
    ∗ (dat1 V qs c).leavesExact 2 t
    ∗ (dat1 V qs c).leavesExact 3 t
    ∗ (dat1 V qs c).leavesExact 4 t)

set_option maxHeartbeats 6400000 in
/-- The body at any point: the inputs' memrefs hold their blocks (`before1_W`); the closed forms say which case the point
    is in; so the run applies; the invariant hands the body the accumulator at what the point before left (at anything at
    the first point), the other scoped buffers and the generator register at some state, and takes the accumulator back at
    this point's contents (its pieces cover it); the core owes nothing throughout. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2, before1_3]
  rw [show (dat1 V qs c).owesAt () t.succ = (dat1 V qs c).owesAt () t.castSucc from rfl]
  rw [show (dat1 V qs c).Φ t.succ = PhiS1 V c (t.val + 1) t.isLt from rfl, PhiS1_succ]
  have hN : t.val < 2048 := lt_of_lt_of_eq t.isLt (show cfg1.N = 2048 from N_1)
  by_cases h0 : t.val % 32 = 0
  · by_cases h1 : t.val % 32 = 31
    · exfalso; omega
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V qs c t, PhiS1_zero V c _ _ hz, PhiA1_eq]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V qs c t, PhiS1_pos V c _ _ hz]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 32 = 31
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [show (dat1 V qs c).leavesExact 4 t = owns (c : Thread nD τ) (ms1_4 t) fullShare ((dat1 V qs c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V qs c t, PhiS1_pos V c _ _ hz]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V qs c t, PhiS1_pos V c _ _ hz]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V qs c) (defs₀ (F := F)) Variants.none () Set.univ := fun t => by
  rw [bigSep_W1, bigSep_W1]
  exact sound_body1 V qs c t

/-- What the launch hands the region is the invariant before the first point. -/
theorem hin1 (c : Dev nD) : Pipeline.ΦA spec1 c ⊢ (dat1 V qs c).Φ 0 := by
  rw [show (dat1 V qs c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V qs c).Φ t ⊢ Pipeline.ΦA spec1 c := by
  rw [show (dat1 V qs c).Φ t = PhiS1 V c t.val (Nat.le_of_lt_succ t.isLt) from rfl, PhiS1_pos V c _ _ ht, PhiA1_eq]
  iintro ⟨⟨HR0, HR1, HR2, HR3, HR4, HR5, HR6, HS0⟩, Hg⟩
  isplitl [HR0 HR1 HR2 HR3 HR4 HR5 HR6 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    iexists _; iexact HS0
  iexact Hg

/-- The same after the last point. -/
theorem hout1 (c : Dev nD) : (dat1 V qs c).Φ (Fin.last cfg1.N) ⊢ Pipeline.ΦA spec1 c :=
  Phi_out1 V qs c _ (by rw [Fin.val_last]; have : cfg1.N = 2048 := N_1; omega)

end Region1

end Cert.Kernel.Hand

end
-- ==== Proof.Bits.Frames.lean ====
/-
  The regions' proof data chained through @main, and the run that follows from them.
-/
import proofs.«163472_j66348654788876_2_alg».proof.Proof.Bits.Glue
import proofs.«163472_j66348654788876_2_alg».proof.Proof.Bits.R0Data
import proofs.«163472_j66348654788876_2_alg».proof.Proof.Bits.R1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two regions' proof data, chained

Region 0 runs on the buffers the host operations leave; region 1 on the same buffers with `main_v47` at what region 0's
write-backs leave in it. Of each array read through two windows the first window holds the left half of the share and
the second the right half. -/

/-- Region 0's input shares: `main_v46` through window 0 (left half) and window 1 (right half). -/
def qs0 : Fin 3 → PosShare TreeShare := fun | 0 => fullShare.left | 1 => fullShare.right | _ => fullShare
/-- Region 1's input shares: `main_v46` through windows 0 and 2, `main_v47` through windows 1 and 3. -/
def qs1 : Fin 5 → PosShare TreeShare := fun | 0 => fullShare.left | 1 => fullShare.left | 2 => fullShare.right | 3 => fullShare.right | _ => fullShare

/-- Region 0's proof data. -/
abbrev datA (c : Dev nD) : Dat τ (Elt F) Unit ℕ (UR sig nD τ) ℕ cfg0 c := dat0 (Vin0 m) qs0 c

/-- The buffers as region 1 finds them: the host operations' results, `main_v47` at region 0's result. -/
def Vmid (c : Dev nD) (b : Ref sig .tc) : Buf (Elt F) ((c : Thread nD τ).loc b) :=
  Function.update (Gen.V1 m c) (Proc.devRef .tc main_v47) ((datA m c).arrAt 2 cfg0.N) (Proc.devRef .tc b)

/-- Region 1's proof data. -/
abbrev datB (c : Dev nD) : Dat τ (Elt F) Unit ℕ (UR sig nD τ) ℕ cfg1 c := dat1 (Vmid m) qs1 c

/-- Both, as the family the run is stated over. -/
def pdatsOf : PDats F
  | ⟨0, _⟩ => fun c => datA m c
  | ⟨1, _⟩ => fun c => datB m c

theorem pdatsOf_zero (c : Dev nD) : pdatsOf m 0 c = datA m c := rfl
theorem pdatsOf_one (c : Dev nD) : pdatsOf m 1 c = datB m c := rfl

theorem Vin1_eq (c : Dev nD) (b : Ref sig .tc) : Vin1 m (pdatsOf m) c b = Vmid m c b := by
  show Function.update (Gen.V1 m c) (Proc.devRef .tc main_v47) (outsOf m (pdatsOf m) 2 main_v47 c) (Proc.devRef .tc b) = _
  rw [outsOf_sq]; rfl

/-- What the glue asks of the data, from the two regions' body proofs. -/
theorem dataFacts : DataFacts m (pdatsOf m) where
  A0 c w := A_eq0 (Vin0 m) qs0 c w
  A1 c w := (A_eq1 (Vmid m) qs1 c w).trans (Vin1_eq m c _).symm
  q0_0 _ := rfl
  q0_1 _ := rfl
  q1_0 _ := rfl
  q1_2 _ := rfl
  q1_1 _ := rfl
  q1_3 _ := rfl
  body0 c := body_obligation0 (Vin0 m) qs0 c
  body1 c := body_obligation1 (Vmid m) qs1 c
  in0 c := hin0 (Vin0 m) qs0 c
  in1 c := hin1 (Vmid m) qs1 c
  out0 c := hout0 (Vin0 m) qs0 c
  out1 c := hout1 (Vmid m) qs1 c
  owed0 _ _ := rfl
  owed1 _ _ := rfl
  rec0 _ _ := rfl
  rec1 _ _ := rfl

variable (ρ : Dev nD → PrngReg)

/-- The run: it terminates, nothing faults, the result array ends at what region 1's write-backs leave, the arguments as launched. -/
theorem run_main : θ_run defs (onTc (τ := τ) (main (F := F))) ⟨m, fun _ => 0, ρ⟩ (fun r => ∀ c : Dev nD,
      r.2.mem ((c.tc : Thread nD τ).loc main_v48) = (pdatsOf m 1 c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of_data ρ (dataFacts m)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_data ρ (dataFacts m)

end Cert.Kernel.Hand

end
-- ==== Proof.Ideal.Glue.lean ====
/-
  The two kernel regions of @main, as items of its run.

  @main is three items: the host operations that build the normalized adjacency matrix, region 0 (the matrix squared,
  accumulated block by block) and region 1 (the matrix times its square, with the combination fused into the last block's
  step). Each region reads one array through two windows — region 0 the matrix as the left and as the right factor; region 1
  the matrix and its square, each as a factor and as an addend — so of such an array's buffer one window holds the left half
  of the share and the other the right half: the halves are dealt when the region is entered and joined again when it is
  left, the contents being the same on both. With that, each region runs from every unscoped buffer at its contents before
  the region to the same buffers with the region's one result array at what its write-backs leave, and the three items in
  sequence terminate, fault nowhere, leave the three arguments as launched and the result array at what region 1 leaves.
  Everything here is stated over the regions' proof data abstractly (`DataFacts`) and for any float instance.
-/
import proofs.«163472_j66348654788876_2_alg».proof.Proof.Gen.KernelIdeal.Regions
import proofs.«163472_j66348654788876_2_alg».proof.Proof.Gen.KernelIdeal.Points
import Idealize.ShloMosaic.Lib.Pipeline.RegionsLoop
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows

Region 0 reads `main_v46` through windows 0 and 1 and writes `main_v47` through window 2; region 1 reads `main_v46` through
windows 0 and 2, `main_v47` through windows 1 and 3, and writes `main_v48` through window 4. -/

theorem img0 : Finset.univ.image (Pipeline.arrRef spec0) = ({main_v46, main_v47} : Finset (Ref sig .tc)) := by decide
theorem img1 : Finset.univ.image (Pipeline.arrRef spec1) = ({main_v46, main_v47, main_v48} : Finset (Ref sig .tc)) := by decide

/-- An input window's share is the one its proof data names. -/
theorem share_in {Λ₀ : Labels} {cfg : Pipeline.Cfg sig Λ₀} {c : Dev nD} (dat : Dat τ (Elt F) Unit ℕ (UR sig nD τ) ℕ cfg c) (w : Fin cfg.W)
    (h : (cfg.win w).isOut = false) : dat.share w = dat.q w := by
  unfold Dat.share; rw [h]; rfl

/-- An output window's array is held outright. -/
theorem share_out {Λ₀ : Labels} {cfg : Pipeline.Cfg sig Λ₀} {c : Dev nD} (dat : Dat τ (Elt F) Unit ℕ (UR sig nD τ) ℕ cfg c) (w : Fin cfg.W)
    (h : (cfg.win w).isOut = true) : dat.share w = fullShare := by
  unfold Dat.share; rw [h]; rfl

/-- One buffer held outright is the same buffer held at the two halves of the full share. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The distinct buffers behind region 0's windows: `main_v46`'s and `main_v47`'s. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_v46) ↦{fullShare} V main_v46) ∗ (((c.tc : Thread nD τ).loc main_v47) ↦{fullShare} V main_v47)) := by
  unfold Pipeline.arrBufs
  rw [img0, bigSep_insert (by decide : main_v46 ∉ ({main_v47} : Finset (Ref sig .tc))), bigSep_singleton]
  rfl

theorem v46_notMem : main_v46 ∉ ({main_v47, main_v48} : Finset (Ref sig .tc)) := by
  simp only [Finset.mem_insert, Finset.mem_singleton, not_or]; exact ⟨by decide, by decide⟩

/-- The distinct buffers behind region 1's windows: `main_v46`'s, `main_v47`'s and `main_v48`'s. -/
theorem arrBufs1_eq (c : Dev nD) (V : (b : Ref sig .tc) → Buf (Elt F) ((c.tc : Thread nD τ).loc b)) :
    (Pipeline.arrBufs (Ix := Unit) (Name := ℕ) (U := UR sig nD τ) (Lvl := ℕ) spec1 c V : sProp 𝕄)
      = iprop((((c.tc : Thread nD τ).loc main_v46) ↦{fullShare} V main_v46) ∗ (((c.tc : Thread nD τ).loc main_v47) ↦{fullShare} V main_v47)
          ∗ (((c.tc : Thread nD τ).loc main_v48) ↦{fullShare} V main_v48)) := by
  unfold Pipeline.arrBufs
  rw [img1, bigSep_insert v46_notMem, bigSep_insert (by decide : main_v47 ∉ ({main_v48} : Finset (Ref sig .tc))), bigSep_singleton]
  rfl

/-- The windows' arrays, each a whole buffer, as the buffers behind them at the windows' shares. -/
theorem arrays_shares0 (c : Dev nD) (dat : Dat τ (Elt F) Unit ℕ (UR sig nD τ) ℕ cfg0 c)
    (Fa : (w : Fin cfg0.W) → Buf (Elt F) ((cfg0.win w).arr.view.loc (c.tc : Thread nD τ))) :
    dat.arrays Fa = bigSep Finset.univ fun w => (((c.tc : Thread nD τ).loc (Pipeline.arrRef spec0 w)) ↦{dat.share w} Fa w : sProp 𝕄) := by
  unfold Dat.arrays
  exact bigSep_congr fun w _ => by rw [(arr_whole0 w).set_eq_univ]
theorem arrays_shares1 (c : Dev nD) (dat : Dat τ (Elt F) Unit ℕ (UR sig nD τ) ℕ cfg1 c)
    (Fa : (w : Fin cfg1.W) → Buf (Elt F) ((cfg1.win w).arr.view.loc (c.tc : Thread nD τ))) :
    dat.arrays Fa = bigSep Finset.univ fun w => (((c.tc : Thread nD τ).loc (Pipeline.arrRef spec1 w)) ↦{dat.share w} Fa w : sProp 𝕄) := by
  unfold Dat.arrays
  exact bigSep_congr fun w _ => by rw [(arr_whole1 w).set_eq_univ]

/-- REGION 0's arrays, dealt: the buffers behind them held outright at contents `V` are the windows' arrays at contents
    that agree with `V` — `main_v46`'s buffer half to window 0 and half to window 1, `main_v47`'s whole to window 2. -/
theorem deal0 (c : Dev nD) (dat : Dat τ (Elt F) Unit ℕ (UR sig nD τ) ℕ cfg0 c)
    (hq0 : dat.q 0 = fullShare.left) (hq1 : dat.q 1 = fullShare.right)
    (V : (b : Ref sig .tc) → Buf (Elt F) ((c.tc : Thread nD τ).loc b))
    (Fa : (w : Fin cfg0.W) → Buf (Elt F) ((cfg0.win w).arr.view.loc (c.tc : Thread nD τ)))
    (h0 : Fa 0 = V main_v46) (h1 : Fa 1 = V main_v46) (h2 : Fa 2 = V main_v47) :
    (Pipeline.arrBufs (Ix := Unit) (Name := ℕ) (U := UR sig nD τ) (Lvl := ℕ) spec0 c V : sProp 𝕄) ⊣⊢ dat.arrays Fa := by
  rw [arrBufs0_eq, arrays_shares0, bigSep_W0, h0, h1, h2,
    share_in dat 0 rfl, share_in dat 1 rfl, share_out dat 2 rfl, hq0, hq1]
  exact ⟨(sep_mono_left (halves (F := F) (V main_v46)).1).trans sep_assoc.1,
    sep_assoc.2.trans (sep_mono_left (halves (F := F) (V main_v46)).2)⟩

theorem isIn1_0 : (cfg1.win 0).isOut = false := rfl
theorem isIn1_1 : (cfg1.win 1).isOut = false := rfl
theorem isIn1_2 : (cfg1.win 2).isOut = false := rfl
theorem isIn1_3 : (cfg1.win 3).isOut = false := rfl
theorem isOut1_4 : (cfg1.win 4).isOut = true := rfl

set_option maxHeartbeats 1000000 in
/-- REGION 1's arrays, dealt: `main_v46`'s buffer half to window 0 and half to window 2, `main_v47`'s half to window 1 and
    half to window 3, `main_v48`'s whole to window 4. -/
theorem deal1 (c : Dev nD) (dat : Dat τ (Elt F) Unit ℕ (UR sig nD τ) ℕ cfg1 c)
    (hq0 : dat.q 0 = fullShare.left) (hq2 : dat.q 2 = fullShare.right)
    (hq1 : dat.q 1 = fullShare.left) (hq3 : dat.q 3 = fullShare.right)
    (V : (b : Ref sig .tc) → Buf (Elt F) ((c.tc : Thread nD τ).loc b))
    (Fa : (w : Fin cfg1.W) → Buf (Elt F) ((cfg1.win w).arr.view.loc (c.tc : Thread nD τ)))
    (h0 : Fa 0 = V main_v46) (h1 : Fa 1 = V main_v47) (h2 : Fa 2 = V main_v46) (h3 : Fa 3 = V main_v47) (h4 : Fa 4 = V main_v48) :
    (Pipeline.arrBufs (Ix := Unit) (Name := ℕ) (U := UR sig nD τ) (Lvl := ℕ) spec1 c V : sProp 𝕄) ⊣⊢ dat.arrays Fa := by
  rw [arrBufs1_eq, arrays_shares1, bigSep_W1, h0, h1, h2, h3, h4,
    share_in dat 0 isIn1_0, share_in dat 1 isIn1_1, share_in dat 2 isIn1_2, share_in dat 3 isIn1_3, share_out dat 4 isOut1_4, hq0, hq1, hq2, hq3]
  -- (a ∗ b ∗ o) ⊣⊢ (aₗ ∗ bₗ ∗ aᵣ ∗ bᵣ ∗ o)
  refine ⟨((sep_mono_left (halves (F := F) (V main_v46)).1).trans (sep_mono_right (sep_mono_left (halves (F := F) (V main_v47)).1))).trans ?_,
    (?_ : _ ⊢ iprop(((((c.tc : Thread nD τ).loc main_v46) ↦{fullShare.left} V main_v46) ∗ (((c.tc : Thread nD τ).loc main_v46) ↦{fullShare.right} V main_v46))
        ∗ ((((c.tc : Thread nD τ).loc main_v47) ↦{fullShare.left} V main_v47) ∗ (((c.tc : Thread nD τ).loc main_v47) ↦{fullShare.right} V main_v47))
        ∗ (((c.tc : Thread nD τ).loc main_v48) ↦{fullShare} V main_v48))).trans
      ((sep_mono_left (halves (F := F) (V main_v46)).2).trans (sep_mono_right (sep_mono_left (halves (F := F) (V main_v47)).2)))⟩
  · iintro ⟨⟨Hal, Har⟩, ⟨Hbl, Hbr⟩, Hc⟩
    isplitl [Hal]; · iexact Hal
    isplitl [Hbl]; · iexact Hbl
    isplitl [Har]; · iexact Har
    isplitl [Hbr]; · iexact Hbr
    iexact Hc
  · iintro ⟨Hal, Hbl, Har, Hbr, Hc⟩
    isplitl [Hal Har]
    · isplitl [Hal]; · iexact Hal
      iexact Har
    isplitl [Hbl Hbr]
    · isplitl [Hbl]; · iexact Hbl
      iexact Hbr
    iexact Hc

/-! ## The buffers between @main's items

`Gen.V1` is every unscoped buffer after the host operations that build the adjacency matrix; region 0 changes
`main_v47` only (to the square), region 1 `main_v48` only (to the result). -/

variable (m : (ℓ : Loc nD τ sig) → Buf (Elt F) ℓ)

/-- Both regions' proof data, region 0's then region 1's. -/
abbrev PDats (F : FTy → Type) [FloatOps F] : Type :=
  (p : Fin 2) → (c : Dev nD) → Dat τ (Elt F) Unit ℕ (UR sig nD τ) ℕ (Pipeline.pin (pcfgs (F := F)) Gen.adm p) c

variable (pdats : PDats F)

/-- What each region leaves in the one array it writes: the write-backs of all its points folded into the array. -/
def outsOf : Gen.Outs (F := F) := fun n r c =>
  if h : n = 2 ∧ r = main_v47 then h.2 ▸ (show Buf (Elt F) ((c : Thread nD τ).loc main_v47) from (pdats 0 c).arrAt 2 cfg0.N)
  else if h : n = 3 ∧ r = main_v48 then h.2 ▸ (show Buf (Elt F) ((c : Thread nD τ).loc main_v48) from (pdats 1 c).arrAt 4 cfg1.N)
  else m ((c : Thread nD τ).loc r)

theorem outsOf_sq (c : Dev nD) : outsOf m pdats 2 main_v47 c = (pdats 0 c).arrAt 2 cfg0.N := by
  unfold outsOf; rw [dif_pos ⟨rfl, rfl⟩]
theorem outsOf_res (c : Dev nD) : outsOf m pdats 3 main_v48 c = (pdats 1 c).arrAt 4 cfg1.N := by
  unfold outsOf; rw [dif_neg (by decide), dif_pos ⟨rfl, rfl⟩]

/-- The unscoped buffers as region 0 finds them, as region 1 finds them, and at the end, read at a reference. -/
abbrev Vin0 (c : Dev nD) (b : Ref sig .tc) : Buf (Elt F) ((c : Thread nD τ).loc b) := Gen.V1 m c b
abbrev Vin1 (c : Dev nD) (b : Ref sig .tc) : Buf (Elt F) ((c : Thread nD τ).loc b) := Gen.V2 m (outsOf m pdats) c b
abbrev Vend (c : Dev nD) (b : Ref sig .tc) : Buf (Elt F) ((c : Thread nD τ).loc b) := Gen.V3 m (outsOf m pdats) c b

theorem Vin1_sq (c : Dev nD) : Vin1 m pdats c main_v47 = (pdats 0 c).arrAt 2 cfg0.N := by
  show Function.update (Gen.V1 m c) (Proc.devRef .tc main_v47) (outsOf m pdats 2 main_v47 c) (Proc.devRef .tc main_v47) = _
  rw [Function.update_self, outsOf_sq]
theorem Vin1_of_ne (c : Dev nD) (b : Ref sig .tc) (h : b ∉ ([main_v47] : List (Ref sig .tc))) : Vin1 m pdats c b = Vin0 m c b :=
  Gen.V2_of m (outsOf m pdats) c b h
theorem Vend_res (c : Dev nD) : Vend m pdats c main_v48 = (pdats 1 c).arrAt 4 cfg1.N := by
  show Function.update (Gen.V2 m (outsOf m pdats) c) (Proc.devRef .tc main_v48) (outsOf m pdats 3 main_v48 c) (Proc.devRef .tc main_v48) = _
  rw [Function.update_self, outsOf_res]
theorem Vend_of_ne (c : Dev nD) (b : Ref sig .tc) (h : b ∉ ([main_v48] : List (Ref sig .tc))) : Vend m pdats c b = Vin1 m pdats c b :=
  Gen.V3_of m (outsOf m pdats) c b h

/-! ## The regions as segments of @main -/

/-- No core owes another anything: no level is assigned. -/
abbrev L0 : GSem nD τ sig → Finset Unit := fun _ => ∅
abbrev lv0 : GSem nD τ sig → Unit → ℕ := fun _ _ => 0

/-- What rides beside the buffers through every item: the core's generator register at some state and its dues, none. -/
abbrev Rd (c : Dev nD) : sProp 𝕄 := iprop((∃ r, prngReg c r) ∗ ∃ W, owes (c : Thread nD τ) (0 : CellTallies nD τ sig Unit) W)

/-- What the glue asks of the two regions' proof data: the arrays at entry are the buffers as the region finds them;
    the share of each array read through two windows is dealt between them; the body obligation; the class invariant
    in and out; nothing owed. -/
structure DataFacts : Prop where
  A0 : ∀ c w, (pdats 0 c).A w = Vin0 m c (Pipeline.arrRef spec0 w)
  A1 : ∀ c w, (pdats 1 c).A w = Vin1 m pdats c (Pipeline.arrRef spec1 w)
  q0_0 : ∀ c, (pdats 0 c).q 0 = fullShare.left
  q0_1 : ∀ c, (pdats 0 c).q 1 = fullShare.right
  q1_0 : ∀ c, (pdats 1 c).q 0 = fullShare.left
  q1_2 : ∀ c, (pdats 1 c).q 2 = fullShare.right
  q1_1 : ∀ c, (pdats 1 c).q 1 = fullShare.left
  q1_3 : ∀ c, (pdats 1 c).q 3 = fullShare.right
  body0 : ∀ c, BodyObligation (pdats 0 c) (defs₀ (F := F)) Variants.none () Set.univ
  body1 : ∀ c, BodyObligation (pdats 1 c) (defs₀ (F := F)) Variants.none () Set.univ
  in0 : ∀ c, Pipeline.ΦA spec0 c ⊢ (pdats 0 c).Φ 0
  in1 : ∀ c, Pipeline.ΦA spec1 c ⊢ (pdats 1 c).Φ 0
  out0 : ∀ c, (pdats 0 c).Φ (Fin.last cfg0.N) ⊢ Pipeline.ΦA spec0 c
  out1 : ∀ c, (pdats 1 c).Φ (Fin.last cfg1.N) ⊢ Pipeline.ΦA spec1 c
  owed0 : ∀ c t, (pdats 0 c).owed t = 0
  owed1 : ∀ c t, (pdats 1 c).owed t = 0
  rec0 : ∀ c t, (pdats 0 c).recorded t = Set.univ
  rec1 : ∀ c t, (pdats 1 c).recorded t = Set.univ

variable {m pdats}

set_option backward.isDefEq.respectTransparency.types false in
/-- REGION 0, entered from every unscoped buffer at `Gen.V1` and left with `main_v47` at what its write-backs leave. -/
def reg0 (hd : DataFacts m pdats) : Pipeline.RegionSeg (pcfgs (F := F)) Gen.adm pdats () defs₀ Variants.none L0 lv0 0 where
  win := winFacts₀0
  block_pos := block_pos0
  stage_whole := stage_whole0
  K := PEmpty
  osem k := k.elim
  ho := Pipeline.OwnSemFacts.none _
  hbody c := (hd.body0 c).loose
  hwaits := Pipeline.hwaits_of_owed_zero _ _ _ _ L0 lv0 0 hd.owed0
  pre c := iprop(StableHlo.held (c : Thread nD τ) (Pipeline.ucRefs τ sig) (Gen.V1 m c) ∗ Rd c)
  post c := iprop(StableHlo.held (c : Thread nD τ) (Pipeline.ucRefs τ sig) (Gen.V2 m (outsOf m pdats) c) ∗ Rd c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (unscopedBufs c (Vin0 m c) : sProp 𝕄)
        ⊢ iprop((pdats 0 c).arrays ((pdats 0 c).arrAt · 0) ∗ Pipeline.unscopedRest spec0 c (Vin0 m c)) := by
      rw [Pipeline.unscopedBufs_split₀ cfgs 0 winFacts₀0.arr_unscoped c (Vin0 m c)]
      exact sep_mono_left (deal0 c (pdats 0 c) (hd.q0_0 c) (hd.q0_1 c) (Vin0 m c) _ (hd.A0 c 0) (hd.A0 c 1) (hd.A0 c 2)).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hd.rec0 c 0]; trivial)
      rw [hd.owed0 c 0]; iexact HO
    isplitl [Hp]; · iexact Hp
    iexact Hrest
  hin c := by
    refine (?_ : _ ⊢ Pipeline.ΦA spec0 c).trans (hd.in0 c)
    unfold Pipeline.ΦA
    iintro ⟨Hp, -, Hr⟩
    isplitl [Hr]; · iexact Hr
    iexact Hp
  hout c := by
    rw [Pipeline.ownSems0_none]
    refine (hd.out0 c).trans ?_
    unfold Pipeline.ΦA
    iintro ⟨Hr, Hp⟩
    isplitl [Hp]; · iexact Hp
    isplitr; · iempintro
    iexact Hr
  hexit c := by
    have hjoin : iprop((pdats 0 c).arrays ((pdats 0 c).arrAt · cfg0.N) ∗ Pipeline.unscopedRest spec0 c (Vin0 m c))
        ⊢ (unscopedBufs c (Vin1 m pdats c) : sProp 𝕄) := by
      rw [Pipeline.unscopedBufs_split₀ cfgs 0 winFacts₀0.arr_unscoped c (Vin1 m pdats c)]
      have hrest : (Pipeline.unscopedRest (Ix := Unit) (Name := ℕ) (U := UR sig nD τ) (Lvl := ℕ) spec0 c (Vin0 m c) : sProp 𝕄)
          = Pipeline.unscopedRest spec0 c (Vin1 m pdats c) := by
        unfold Pipeline.unscopedRest
        exact bigSep_congr fun b hb => by
          rw [Vin1_of_ne m pdats c b (fun h => (Finset.mem_sdiff.mp hb).2 (by rw [img0]; rw [List.mem_singleton.mp h]; decide))]
      rw [hrest]
      exact sep_mono_left (deal0 c (pdats 0 c) (hd.q0_0 c) (hd.q0_1 c) (Vin1 m pdats c) _
        (((pdats 0 c).arrAt_in 0 rfl _).trans ((hd.A0 c 0).trans (Vin1_of_ne m pdats c main_v46 (by decide)).symm))
        (((pdats 0 c).arrAt_in 1 rfl _).trans ((hd.A0 c 1).trans (Vin1_of_ne m pdats c main_v46 (by decide)).symm))
        (Vin1_sq m pdats c).symm).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [hd.owed0 c (Fin.last _)]; iexact HO

set_option backward.isDefEq.respectTransparency.types false in
/-- REGION 1, entered from the buffers as region 0 leaves them and left with `main_v48` at what its write-backs leave. -/
def reg1 (hd : DataFacts m pdats) : Pipeline.RegionSeg (pcfgs (F := F)) Gen.adm pdats () defs₀ Variants.none L0 lv0 1 where
  win := winFacts₀1
  block_pos := block_pos1
  stage_whole := stage_whole1
  K := PEmpty
  osem k := k.elim
  ho := Pipeline.OwnSemFacts.none _
  hbody c := (hd.body1 c).loose
  hwaits := Pipeline.hwaits_of_owed_zero _ _ _ _ L0 lv0 1 hd.owed1
  pre c := iprop(StableHlo.held (c : Thread nD τ) (Pipeline.ucRefs τ sig) (Gen.V2 m (outsOf m pdats) c) ∗ Rd c)
  post c := iprop(StableHlo.held (c : Thread nD τ) (Pipeline.ucRefs τ sig) (Gen.V3 m (outsOf m pdats) c) ∗ Rd c)
  X c := iprop(∃ r, prngReg c r)
  Y c := iprop(∃ r, prngReg c r)
  Z c := Pipeline.unscopedRest (Ix := Unit) (Name := ℕ) (U := UR sig nD τ) (Lvl := ℕ) spec1 c (Vin1 m pdats c)
  hentry c := by
    rw [Pipeline.ownSems0_none]
    have hsplit : (unscopedBufs c (Vin1 m pdats c) : sProp 𝕄)
        ⊢ iprop((pdats 1 c).arrays ((pdats 1 c).arrAt · 0) ∗ Pipeline.unscopedRest spec1 c (Vin1 m pdats c)) := by
      rw [Pipeline.unscopedBufs_split₀ cfgs 1 winFacts₀1.arr_unscoped c (Vin1 m pdats c)]
      exact sep_mono_left (deal1 c (pdats 1 c) (hd.q1_0 c) (hd.q1_2 c) (hd.q1_1 c) (hd.q1_3 c) (Vin1 m pdats c) _
        (hd.A1 c 0) (hd.A1 c 1) (hd.A1 c 2) (hd.A1 c 3) (hd.A1 c 4)).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hd.rec1 c 0]; trivial)
      rw [hd.owed1 c 0]; iexact HO
    isplitl [Hp]; · iexact Hp
    iexact Hrest
  hin c := by
    refine (?_ : _ ⊢ Pipeline.ΦA spec1 c).trans (hd.in1 c)
    unfold Pipeline.ΦA
    iintro ⟨Hp, -, Hr⟩
    isplitl [Hr]; · iexact Hr
    iexact Hp
  hout c := by
    rw [Pipeline.ownSems0_none]
    refine (hd.out1 c).trans ?_
    unfold Pipeline.ΦA
    iintro ⟨Hr, Hp⟩
    isplitl [Hp]; · iexact Hp
    isplitr; · iempintro
    iexact Hr
  hexit c := by
    have hjoin : iprop((pdats 1 c).arrays ((pdats 1 c).arrAt · cfg1.N) ∗ Pipeline.unscopedRest spec1 c (Vin1 m pdats c))
        ⊢ (unscopedBufs c (Vend m pdats c) : sProp 𝕄) := by
      rw [Pipeline.unscopedBufs_split₀ cfgs 1 winFacts₀1.arr_unscoped c (Vend m pdats c)]
      have hrest : (Pipeline.unscopedRest (Ix := Unit) (Name := ℕ) (U := UR sig nD τ) (Lvl := ℕ) spec1 c (Vin1 m pdats c) : sProp 𝕄)
          = Pipeline.unscopedRest spec1 c (Vend m pdats c) := by
        unfold Pipeline.unscopedRest
        exact bigSep_congr fun b hb => by
          rw [Vend_of_ne m pdats c b (fun h => (Finset.mem_sdiff.mp hb).2 (by
            rw [img1, List.mem_singleton.mp h]; simp only [Finset.mem_insert, Finset.mem_singleton, or_true]))]
      rw [hrest]
      exact sep_mono_left (deal1 c (pdats 1 c) (hd.q1_0 c) (hd.q1_2 c) (hd.q1_1 c) (hd.q1_3 c) (Vend m pdats c) _
        (((pdats 1 c).arrAt_in 0 isIn1_0 _).trans ((hd.A1 c 0).trans (Vend_of_ne m pdats c main_v46 (by decide)).symm))
        (((pdats 1 c).arrAt_in 1 isIn1_1 _).trans ((hd.A1 c 1).trans (Vend_of_ne m pdats c main_v47 (by decide)).symm))
        (((pdats 1 c).arrAt_in 2 isIn1_2 _).trans ((hd.A1 c 2).trans (Vend_of_ne m pdats c main_v46 (by decide)).symm))
        (((pdats 1 c).arrAt_in 3 isIn1_3 _).trans ((hd.A1 c 3).trans (Vend_of_ne m pdats c main_v47 (by decide)).symm))
        (Vend_res m pdats c).symm).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [hd.owed1 c (Fin.last _)]; iexact HO

/-! ## The run, with the result named

The library's theorem for a program of several regions, applied to @main's three items (the host operations, region 0,
region 1) over the thread states above; at the end every unscoped buffer is read off the last valuation, the result
array `main_v48` among them. -/

variable (ρ : Dev nD → PrngReg)

theorem Vend_arg0 (c : Dev nD) : Vend m pdats c main_arg0 = m ((c : Thread nD τ).loc main_arg0) := Gen.V3_main_arg0 m (outsOf m pdats) c
theorem Vend_arg1 (c : Dev nD) : Vend m pdats c main_arg1 = m ((c : Thread nD τ).loc main_arg1) := Gen.V3_main_arg1 m (outsOf m pdats) c
theorem Vend_arg2 (c : Dev nD) : Vend m pdats c main_arg2 = m ((c : Thread nD τ).loc main_arg2) := Gen.V3_main_arg2 m (outsOf m pdats) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting; the result array
    ends at what region 1's write-backs leave in it, and the three argument arrays end as launched. -/
theorem run_of_data (hd : DataFacts m pdats) :
    θ_run defs (onTc (τ := τ) (main (F := F))) ⟨m, fun _ => 0, ρ⟩ (fun r => ∀ c : Dev nD,
      r.2.mem ((c.tc : Thread nD τ).loc main_v48) = (pdats 1 c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) Gen.adm pdats () cellOf_inj emb₁ defs₀ Variants.none L0 lv0 m ρ main
    (Gen.segs m Variants.none L0 lv0 (fun _ c => Rd c) () pdats (reg0 hd) (reg1 hd))
    (fun c Q => by
      rewrite [main_chain c, Pipeline.Seg.run_eq_chain,
        show (Gen.segs m Variants.none L0 lv0 (fun _ c => Rd c) () pdats (reg0 hd) (reg1 hd) c).map Pipeline.Seg.prog = [
          StableHlo.seq hostOps0,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rd c))
    (Tₙ := fun c => iprop(StableHlo.held (c : Thread nD τ) (Pipeline.ucRefs τ sig) (Gen.V3 m (outsOf m pdats) c) ∗ ∃ r, prngReg c r))
    (hch := fun c => ⟨.rfl, .rfl, .rfl, sep_assoc.2⟩)
    (hinit := ?_)
    (QY := fun c s => ∀ b ∈ Pipeline.ucRefs τ sig, s.mem (((c : Thread nD τ)).1, b) = Gen.V3 m (outsOf m pdats) c b)
    (hfin := fun c s' => ?_)
    (hQ := fun s h c => ⟨(h c _ (mem_uc main_v48 (by decide))).trans (Vend_res m pdats c),
      (h c _ (mem_uc main_arg0 (by decide))).trans (Vend_arg0 c),
      (h c _ (mem_uc main_arg1 (by decide))).trans (Vend_arg1 c),
      (h c _ (mem_uc main_arg2 (by decide))).trans (Vend_arg2 c)⟩)
  · refine Pipeline.initEach L0 lv0 fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (Gen.V3 m (outsOf m pdats) c) s')
    isplitl [Hh] <;> iassumption

/-- The frame alone: the arguments end as launched. -/
theorem frame_of_data (hd : DataFacts m pdats) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_of_data ρ hd)

end Cert.KernelIdeal.Hand
end
-- ==== Proof.Ideal.R0Runs.lean ====
import proofs.«163472_j66348654788876_2_alg».proof.Proof.Gen.KernelIdeal.Launch
import proofs.«163472_j66348654788876_2_alg».proof.Proof.Gen.KernelIdeal.Skeleton
import proofs.«163472_j66348654788876_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the first matmul, grid 8 x 8 x 8, reduction over the last axis): what its three control cases share

Everything is stated at a parameter `V`: the TensorCore's buffer contents when the region is entered. -/

section
variable (V : (c : Dev nD) → (b : Ref sig .tc) → Buf (Elt F) ((c : Thread nD τ).loc b))

/-! ## The windows' blocks -/

/-- Window `w`'s block at point `t`, read off its array at the region-entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block (i, k) at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 and its block (k, j). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- The condition of the body's first conditional, from the grid coordinates: the reduction index `k` (the last
    coordinate) is 0. -/
abbrev cond0_0 (i : grid0.Coords) : Prop := (Scalar.cmpi .ne (Scalar.extui (Scalar.cmpi .eq (BitVec.ofNat 32 (i 2).val) 0#32)) 0#32) = 1#1
/-- It holds at the points ≡ 0 (mod 8): `k` is the point number modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional: `k` is 7, the last reduction step. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points with `k = 0` the output window 2 is idle: nothing is stored into it, -/
theorem idleAt0_2_A : ∀ t : Fin cfg0.N, cond0_0 (grid0.coords t) → ¬cond0_1 (grid0.coords t) → cfg0.idle 2 (grid0.coords t) = true := by decide +kernel
/-- and its block is not written back there. -/
theorem noFlush0_2_A : ∀ t : Fin cfg0.N, cond0_0 (grid0.coords t) → ¬cond0_1 (grid0.coords t) → (cfg0.win 2).flush t = false := by decide +kernel
/-- The same at the points with `0 < k < 7`. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the points with `k = 7` the output window 2 is live: the accumulator is rounded and stored into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of output window 2, through which its contents are stated (reading back a covering list of
    writes does not depend on the choice). -/
abbrev VO0_2 : View sig .tc .vmem S1024x1024 .bf16 := (Memref.whole cc0_stg2_0 : Memref sig .tc .vmem S1024x1024 .bf16).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The f32 accumulator: a whole scoped buffer of the kernel's own, passed beside the windows. -/
abbrev scM0_0 : Memref sig .tc .vmem S1024x1024 .f32 := Memref.whole cc0_scratch0
/-- The accumulator as a view: what it holds between points is stated through it. -/
abbrev VS0_0 : View sig .tc .vmem S1024x1024 .f32 := scM0_0.view

/-! ## The region invariant, with the accumulator as a memref -/

/-- The core's scoped buffers that region 0 neither stages nor accumulates in (the second matmul's staging buffers and
    accumulator), each whole at some contents: the body never touches them. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_scratch0), ((c : Thread nD τ).loc cc1_scratch0) ↦{fullShare} f))

/-- The region's invariant at entry: the accumulator owned at some contents, the other scoped buffers, the generator
    register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Hand

end
-- ==== Proof.Ideal.R0RunA.lean ====
import proofs.«163472_j66348654788876_2_alg».proof.Proof.Ideal.R0Runs

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body at a point with `k = 0` (first conditional taken, second not). On whole memrefs — the two input blocks at
    contents `x0`, `x1`; the output's staging buffer at contents `xi2`, handed back untouched; the accumulator at
    ANYTHING (it is loaded before it is overwritten, and the loaded value is discarded) — the body runs to the
    continuation holding the inputs as they were and the accumulator with the pieces `LS0` written, last first: the
    product added to the zeroed accumulator, over the zero fill. The pieces are the witness the symbolic run finds. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨[], ?_, fun xi2 E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R0RunB.lean ====
import proofs.«163472_j66348654788876_2_alg».proof.Proof.Ideal.R0RunA

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body at a point with `0 < k < 7` (neither conditional taken). On whole memrefs — the two input blocks at
    contents `x0`, `x1`; the output's staging buffer at contents `xi2`, handed back untouched; the accumulator at the
    contents `xs0` the point before left — the body runs to the continuation holding the inputs as they were and the
    accumulator with the pieces `LS0` written: the product added to `xs0`. The pieces are the witness the symbolic run
    finds. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨[], ?_, fun xi2 E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.Ideal.R0RunC.lean ====
import proofs.«163472_j66348654788876_2_alg».proof.Proof.Ideal.R0RunB

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The body at a point with `k = 7` (first conditional not taken, second taken). On whole memrefs — the two input
    blocks at contents `x0`, `x1`; the output's staging buffer at ANYTHING; the accumulator at the contents `xs0` the
    point before left — the body runs to the continuation holding the inputs as they were, the accumulator with the
    pieces `LS0` written (the product added to `xs0`) and the output's buffer with the pieces `L2` written (that sum
    rounded to bf16). The pieces are the witness the symbolic run finds. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bf16_kernel i arg3 harg3 arg4 harg4 arg5 harg5 arg6 harg6) K } := by
  refine ⟨?_, ?_, fun E K => ?run⟩
  case run =>
    simp only [cc0__matmul_bf16_kernel_eq_skeleton]; unfold cc0__matmul_bf16_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.Ideal.R0Data.lean ====
import proofs.«163472_j66348654788876_2_alg».proof.Proof.Ideal.R0RunC

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the accumulator and the output hold point by point, the proof data, the body obligation -/

/-! ## What each case leaves -/

/-- At `k = 0` nothing is stored into output 2 (the window is idle there and not written back): no pieces — a
    placeholder nothing consults, since at these points the window is neither written back nor read at the next. -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .bf16 :=
  VO0_2.read (Elt F) (VO0_2.writes (Elt F) VO0_2.junk (kernelRun0_A c i arg3 harg3 arg4 harg4 arg5 harg5 arg6 harg6 hc0 hc1 x0 x1).1)

/-- At `k = 0` the pieces written into the accumulator cover it: each of the two stores is the whole 1024 x 1024 tile. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What a point with `k = 0` leaves in the accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- At `0 < k < 7` nothing is stored into output 2 either: the same placeholder. -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)

/-- At `0 < k < 7` the one store into the accumulator is the whole tile. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What a point with `0 < k < 7` leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- At `k = 7` the one store into output 2's staging buffer is the whole tile, so it covers the block. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What a point with `k = 7` leaves in output 2's staging buffer: the accumulated sum rounded to bf16. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .bf16 :=
  VO0_2.read (Elt F) (VO0_2.writes (Elt F) VO0_2.junk (kernelRun0_C c i arg3 harg3 arg4 harg4 arg5 harg5 arg6 harg6 hc0 hc1 x0 x1 xs0).1)

/-- At `k = 7` the one store into the accumulator is the whole tile. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What a point with `k = 7` leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

section
variable (V : (c : Dev nD) → (b : Ref sig .tc) → Buf (Elt F) ((c : Thread nD τ).loc b))

/-! ## What the output's buffer and the accumulator hold after each point -/

/-- THE ACCUMULATION. What output 2's staging buffer and the accumulator hold after the body at position `n` (a pair):
    the case `n mod 8` selects, run at the point's memrefs and input blocks; for `k ≠ 0` the accumulator starts from
    what position `n - 1` left. (`k = 0` and `k = 7` at once is no case.) -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point with `k = 0`: that case's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point with `0 < k < 7`: that case's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with `k = 7`: that case's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the entry invariant (the accumulator at anything);
    afterwards the accumulator at what the point before left in it, the other scoped buffers at anything and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

variable (qs : Fin 3 → PosShare TreeShare)

/-- The proof data of region 0 on core `c`: the arrays as the region finds them (`V`); after the body at point `t`
    each input's buffer at its block and the output's at `outsAt0`'s first component; the invariant `PhiS0`; nothing
    owed; the input windows' shares `qs`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := qs
  owed _ := 0

/-- The proof data's arrays are the region-entry contents. -/
theorem A_eq0 (c : Dev nD) (w : Fin cfg0.W) : (dat0 V qs c).A w = V c (Pipeline.arrRef spec0 w) := by
  dsimp only [dat0]

/-- The invariant at a point's start, restated at `t.val`. -/
theorem PhiS0_castSucc (c : Dev nD) (t : Fin cfg0.N) :
    (dat0 V qs c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V qs c).after 0 t = iblk0 V c 0 t := by dsimp only [dat0]
theorem after0_1 (c : Dev nD) (t : Fin cfg0.N) : (dat0 V qs c).after 1 t = iblk0 V c 1 t := by dsimp only [dat0]
theorem after0_2 (c : Dev nD) (t : Fin cfg0.N) : (dat0 V qs c).after 2 t = (outsAt0 V c t.val t.isLt).1 := by dsimp only [dat0]

/-- Each input's current staging buffer holds its block at every point, fetched there or not. -/
theorem before0_0 (c : Dev nD) (t : Fin cfg0.N) (d) : (dat0 V qs c).before 0 t d = iblk0 V c 0 t :=
  before0_0_of V (dat0 V qs c) (A_eq0 V qs c 0) (after0_0 V qs c) t d
theorem before0_1 (c : Dev nD) (t : Fin cfg0.N) (d) : (dat0 V qs c).before 1 t d = iblk0 V c 1 t :=
  before0_1_of V (dat0 V qs c) (A_eq0 V qs c 1) (after0_1 V qs c) t d

/-! ## The body obligation, at a generic point -/

/-- What the body is called with at point `t`, the windows one by one, -/
def bodyPre0 (c : Dev nD) (t : Fin cfg0.N) : sProp 𝕄 :=
  iprop((dat0 V qs c).Φ t.castSucc ∗ (dat0 V qs c).owesAt () t.castSucc
    ∗ (∃ d, owns (c : Thread nD τ) (ms0_0 t) fullShare ((dat0 V qs c).before 0 t d))
    ∗ (∃ d, owns (c : Thread nD τ) (ms0_1 t) fullShare ((dat0 V qs c).before 1 t d))
    ∗ (∃ d, owns (c : Thread nD τ) (ms0_2 t) fullShare ((dat0 V qs c).before 2 t d)))

/-- and what it returns. -/
def bodyPost0 (c : Dev nD) (t : Fin cfg0.N) : sProp 𝕄 :=
  iprop((dat0 V qs c).Φ t.succ ∗ (dat0 V qs c).owesAt () t.succ
    ∗ (dat0 V qs c).leavesExact 0 t
    ∗ (dat0 V qs c).leavesExact 1 t
    ∗ (dat0 V qs c).leavesExact 2 t)

set_option maxHeartbeats 4800000 in
/-- The body at any point. The inputs' memrefs hold their blocks; `t mod 8` says which case the point is in, so that
    case's run applies. The invariant hands the body the accumulator at what the point before left (at anything at the
    grid's first point; at a later point with `k = 0` the named contents are forgotten, the case not reading them) and
    takes it back at this point's contents, its pieces covering it. Where the output is idle its buffer comes back as
    found; at `k = 7` it comes back at the pieces read back, which cover it. The core owes nothing throughout. -/
theorem sound_body0 (c : Dev nD) (t : Fin cfg0.N) :
    bodyPre0 V qs c t ⊢ wp frame (wpE (defs₀ (F := F)) Variants.none c none) Set.univ (bodyAt0 t) (fun _ => bodyPost0 V qs c t) := by
  unfold bodyPre0 bodyPost0 bodyAt0
  simp only [before0_0, before0_1]
  rw [show (dat0 V qs c).owesAt () t.succ = (dat0 V qs c).owesAt () t.castSucc from rfl]
  rw [show (dat0 V qs c).Φ t.succ = PhiS0 V c (t.val + 1) t.isLt from rfl, PhiS0_succ]
  by_cases h0 : t.val % 8 = 0
  · by_cases h1 : t.val % 8 = 7
    · exfalso; omega
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [Dat.leavesExact_idle (dat0 V qs c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V qs c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V qs c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by omega)
    by_cases h1 : t.val % 8 = 7
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V qs c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [Dat.leavesExact_idle (dat0 V qs c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V qs c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation of region 0, at every point. -/
theorem body_obligation0 (c : Dev nD) : BodyObligation (dat0 (F := F) V qs c) (defs₀ (F := F)) Variants.none () Set.univ := fun t => by
  rw [bigSep_W0, bigSep_W0]
  exact sound_body0 V qs c t

/-- What the launch hands the region is the invariant before the first point. -/
theorem hin0 (c : Dev nD) : Pipeline.ΦA spec0 c ⊢ (dat0 V qs c).Φ 0 := by
  rw [show (dat0 V qs c).Φ 0 = PhiS0 V c 0 (Nat.zero_le _) from rfl, PhiS0_zero V c 0 _ rfl]
  try exact Idealize.SL.BI.Entails.refl _

/-- After any point but the first the invariant gives the entry invariant back: the accumulator's named contents are
    forgotten. -/
theorem Phi_out0 (c : Dev nD) (t : Fin (cfg0.N + 1)) (ht : t.val ≠ 0) : (dat0 V qs c).Φ t ⊢ Pipeline.ΦA spec0 c := by
  rw [show (dat0 V qs c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V qs c).Φ (Fin.last cfg0.N) ⊢ Pipeline.ΦA spec0 c :=
  Phi_out0 V qs c _ (by rw [Fin.val_last]; have : cfg0.N = 512 := N_0; omega)

end

end Cert.KernelIdeal.Hand

end
-- ==== Proof.Ideal.R1Runs.lean ====
import proofs.«163472_j66348654788876_2_alg».proof.Proof.Gen.KernelIdeal.Launch
import proofs.«163472_j66348654788876_2_alg».proof.Proof.Gen.KernelIdeal.Skeleton
import proofs.«163472_j66348654788876_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! # Region 1 of @main: custom_call 1, `cc1__matmul2_fused_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (the reduction index is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 32) — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-- The condition of the body's second `scf.if` (the reduction index is 31, the last), from the grid coordinates. -/
abbrev cond1_1 (i : grid1.Coords) : Prop := k1_cond2 i = 1#1
/-- It holds at the points ≡ 31 (mod 32) — decided over the grid. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

/-- Windows 0 to 3 are never idle (inputs). -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- At the points of case A output 4 is idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B output 4 is idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C output 4 is live: the case stores into it. -/
theorem liveAt1_4_C : ∀ t : Fin cfg1.N, ¬cond1_0 (grid1.coords t) → cond1_1 (grid1.coords t) → cfg1.idle 4 (grid1.coords t) = false := by decide +kernel

/-! ## The kernel body on any staging memrefs -/

/-- One staging buffer of output window 4, through which its contents are stated (the choice does not matter). -/
abbrev VO1_4 : View sig .tc .vmem S1024x1024 .f32 := (Memref.whole cc1_stg4_0 : Memref sig .tc .vmem S1024x1024 .f32).view
/-- Each window's current staging memref at point `t`, spelled as the pipeline passes it, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The scratch operand: a whole scoped buffer of the kernel's own, passed beside the windows. -/
abbrev scM1_0 : Memref sig .tc .vmem S1024x1024 .f32 := Memref.whole cc1_scratch0
/-- The scratch the kernel carries between points (the accumulator), as a view: what it holds is stated through it. -/
abbrev VS1_0 : View sig .tc .vmem S1024x1024 .f32 := scM1_0.view

/-- The region's invariant with the scratch operand as a memref owned at some contents, the other scoped buffers
    (the other call's staging and scratch) each whole at some contents: what the body obligation hands the run and
    takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.Ideal.R1RunA.lean ====
import proofs.«163472_j66348654788876_2_alg».proof.Proof.Ideal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the accumulator, as pieces (last first), in
    case A (the reduction index is 0: the first `scf.if` taken, the second not), with the proof that on whole staging
    memrefs — the inputs' at their contents, the output's (idle: no store) at contents `xi4` handed back untouched, the
    accumulator at anything (it is zeroed before it is read) — the body runs to the continuation holding the inputs' as
    they were and the accumulator with its pieces written. The pieces are the witness the run finds. -/
noncomputable def kernelRun1_A (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8) K } := by
  refine ⟨[], ?_, fun xi4 E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.Ideal.R1RunB.lean ====
import proofs.«163472_j66348654788876_2_alg».proof.Proof.Ideal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same in case B (the reduction index is neither 0 nor 31: neither `scf.if` taken): the accumulator is found at
    the contents `xs0` the point before left, the output's buffer (idle) handed back untouched. -/
noncomputable def kernelRun1_B (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8) K } := by
  refine ⟨[], ?_, fun xi4 E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.Ideal.R1RunC.lean ====
import proofs.«163472_j66348654788876_2_alg».proof.Proof.Ideal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- The same in case C (the reduction index is 31, the last: the first `scf.if` not taken, the second taken): the
    accumulator is found at the contents `xs0` the point before left, the output's buffer at anything and left with its
    pieces written. -/
noncomputable def kernelRun1_C (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__matmul2_fused_kernel i arg3 harg3 arg4 harg4 arg5 harg5 arg6 harg6 arg7 harg7 arg8 harg8) K } := by
  refine ⟨?_, ?_, fun E K => ?run⟩
  case run =>
    simp only [cc1__matmul2_fused_kernel_eq_skeleton]; unfold cc1__matmul2_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.Ideal.R1Data.lean ====
import proofs.«163472_j66348654788876_2_alg».proof.Proof.Ideal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output and in the accumulator -/

/-- Case A stores nothing into output 4 (the window is idle at its points and not written back there): no pieces —
    a placeholder (junk read back) that nothing consults, since at these points the window is neither written back nor
    read at the next point. -/
def out1_A_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for the accumulator, which the kernel carries between points, cover it: 2 pieces, each of the whole shape. -/
theorem scover1_A_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- What case A leaves in the accumulator: its pieces read back over junk. -/
def sout1_A_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x256 .bf16) (x1 : Vec F S256x1024 .bf16) (x2 : Vec F S1024x1024 .bf16) (x3 : Vec F S1024x1024 .bf16) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- Case B stores nothing into output 4 (the window is idle at its points and not written back there): no pieces —
    a placeholder (junk read back) that nothing consults, since at these points the window is neither written back nor
    read at the next point. -/
def out1_B_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for the accumulator, which the kernel carries between points, cover it: 1 piece of the whole shape. -/
theorem scover1_B_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- What case B leaves in the accumulator: its pieces read back over junk. -/
def sout1_B_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Case C's pieces for output 4 tile its block (one store of the whole shape), so they cover it. -/
theorem cover1_C_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-- What case C leaves in output 4's staging buffer: its pieces read back over junk. -/
def out1_C_4 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for the accumulator, which the kernel carries between points, cover it: 1 piece of the whole shape. -/
theorem scover1_C_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- What case C leaves in the accumulator: its pieces read back over junk. -/
def sout1_C_0 (c : Dev nD) (i : grid1.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x256 .bf16) (x1 : Vec F S256x1024 .bf16) (x2 : Vec F S1024x1024 .bf16) (x3 : Vec F S1024x1024 .bf16) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

section Region1
-- the TensorCore's buffer contents when the region is entered, and the share held of each window's array
variable (V : (c : Dev nD) → (b : Ref sig .tc) → Buf (Elt F) ((c : Thread nD τ).loc b))
variable (qs : Fin 5 → PosShare TreeShare)

/-! ## What the output and the accumulator hold after each point -/

/-- THE ACCUMULATION. What output 4's staging buffer and the accumulator hold after the body at position `n` (a pair: the
    output, then the accumulator): the case the closed forms select at `n`, run at the point's memrefs and input blocks, the
    accumulator it reads at what this leaves at `n - 1`. An assignment of the conditions no point meets is no case. -/
def outsAt1 (c : Dev nD) : (n : ℕ) → n < cfg1.N → Vec F S1024x1024 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 32 = 0 then
      if h1 : (n + 1) % 32 = 31 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 32 = 31 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case A: that case's contents. -/
theorem outsAt1_A (c : Dev nD) (t : Fin cfg1.N) (h0 : t.val % 32 = 0) (h1 : ¬t.val % 32 = 31) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 32 = 0) (h1 : ¬t.val % 32 = 31) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 32 = 0) (h1 : t.val % 32 = 31) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the accumulator being carried between points: before the first point the
    launch's (every scoped buffer at anything); afterwards the same with the accumulator at what the point before left in
    it (`outsAt1`'s second component), and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed;
    the shares `qs`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := qs
  owed _ := 0

/-- The proof data's arrays are the region-entry contents (the definition projected, so that `V` is never unfolded). -/
theorem A_eq1 (c : Dev nD) (w : Fin cfg1.W) : (dat1 V qs c).A w = V c (Pipeline.arrRef spec1 w) := by
  dsimp only [dat1]

/-- The invariant at a point's start (the proof data at `t.castSucc`), restated at `t.val`. -/
theorem PhiS1_castSucc (c : Dev nD) (t : Fin cfg1.N) :
    (dat1 V qs c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = iblk1 V c 3 t := by dsimp only [dat1]
theorem after1_4 (c : Dev nD) (t : Fin cfg1.N) : (dat1 V qs c).after 4 t = (outsAt1 V c t.val t.isLt).1 := by dsimp only [dat1]

/-- Each input's current staging buffer holds its block at every point, fetched there or not. -/
theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d
theorem before1_3 (c : Dev nD) (t : Fin cfg1.N) (d) : (dat1 V qs c).before 3 t d = iblk1 V c 3 t :=
  before1_3_of V (dat1 V qs c) (A_eq1 V qs c 3) (after1_3 V qs c) t d

/-! ## The body obligation, at a generic point -/

/-- What the body is called with at point `t` (the body obligation's precondition, the windows one by one), -/
def bodyPre1 (c : Dev nD) (t : Fin cfg1.N) : sProp 𝕄 :=
  iprop((dat1 V qs c).Φ t.castSucc ∗ (dat1 V qs c).owesAt () t.castSucc
    ∗ (∃ d, owns (c : Thread nD τ) (ms1_0 t) fullShare ((dat1 V qs c).before 0 t d))
    ∗ (∃ d, owns (c : Thread nD τ) (ms1_1 t) fullShare ((dat1 V qs c).before 1 t d))
    ∗ (∃ d, owns (c : Thread nD τ) (ms1_2 t) fullShare ((dat1 V qs c).before 2 t d))
    ∗ (∃ d, owns (c : Thread nD τ) (ms1_3 t) fullShare ((dat1 V qs c).before 3 t d))
    ∗ (∃ d, owns (c : Thread nD τ) (ms1_4 t) fullShare ((dat1 V qs c).before 4 t d)))

/-- and what it returns. -/
def bodyPost1 (c : Dev nD) (t : Fin cfg1.N) : sProp 𝕄 :=
  iprop((dat1 V qs c).Φ t.succ ∗ (dat1 V qs c).owesAt () t.succ
    ∗ (dat1 V qs c).leavesExact 0 t
    ∗ (dat1 V qs c).leavesExact 1 t
    ∗ (dat1 V qs c).leavesExact 2 t
    ∗ (dat1 V qs c).leavesExact 3 t
    ∗ (dat1 V qs c).leavesExact 4 t)

set_option maxHeartbeats 6400000 in
/-- The body at any point: the inputs' memrefs hold their blocks (`before1_W`); the closed forms say which case the point
    is in; so the run applies; the invariant hands the body the accumulator at what the point before left (at anything at
    the first point), the other scoped buffers and the generator register at some state, and takes the accumulator back at
    this point's contents (its pieces cover it); the core owes nothing throughout. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2, before1_3]
  rw [show (dat1 V qs c).owesAt () t.succ = (dat1 V qs c).owesAt () t.castSucc from rfl]
  rw [show (dat1 V qs c).Φ t.succ = PhiS1 V c (t.val + 1) t.isLt from rfl, PhiS1_succ]
  have hN : t.val < 2048 := lt_of_lt_of_eq t.isLt (show cfg1.N = 2048 from N_1)
  by_cases h0 : t.val % 32 = 0
  · by_cases h1 : t.val % 32 = 31
    · exfalso; omega
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V qs c t, PhiS1_zero V c _ _ hz, PhiA1_eq]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V qs c t, PhiS1_pos V c _ _ hz]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 32 = 31
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [show (dat1 V qs c).leavesExact 4 t = owns (c : Thread nD τ) (ms1_4 t) fullShare ((dat1 V qs c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V qs c t, PhiS1_pos V c _ _ hz]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V qs c t, PhiS1_pos V c _ _ hz]
        iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR0 HR1 HR2 HR3 HR4 HR5 HR6 HS0 Hg]
        · isplitl [HR0 HR1 HR2 HR3 HR4 HR5 HR6 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V qs c) (defs₀ (F := F)) Variants.none () Set.univ := fun t => by
  rw [bigSep_W1, bigSep_W1]
  exact sound_body1 V qs c t

/-- What the launch hands the region is the invariant before the first point. -/
theorem hin1 (c : Dev nD) : Pipeline.ΦA spec1 c ⊢ (dat1 V qs c).Φ 0 := by
  rw [show (dat1 V qs c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V qs c).Φ t ⊢ Pipeline.ΦA spec1 c := by
  rw [show (dat1 V qs c).Φ t = PhiS1 V c t.val (Nat.le_of_lt_succ t.isLt) from rfl, PhiS1_pos V c _ _ ht, PhiA1_eq]
  iintro ⟨⟨HR0, HR1, HR2, HR3, HR4, HR5, HR6, HS0⟩, Hg⟩
  isplitl [HR0 HR1 HR2 HR3 HR4 HR5 HR6 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    iexists _; iexact HS0
  iexact Hg

/-- The same after the last point. -/
theorem hout1 (c : Dev nD) : (dat1 V qs c).Φ (Fin.last cfg1.N) ⊢ Pipeline.ΦA spec1 c :=
  Phi_out1 V qs c _ (by rw [Fin.val_last]; have : cfg1.N = 2048 := N_1; omega)

end Region1

end Cert.KernelIdeal.Hand

end
-- ==== Proof.Ideal.Frames.lean ====
/-
  The regions' proof data chained through @main, and the run that follows from them.
-/
import proofs.«163472_j66348654788876_2_alg».proof.Proof.Ideal.Glue
import proofs.«163472_j66348654788876_2_alg».proof.Proof.Ideal.R0Data
import proofs.«163472_j66348654788876_2_alg».proof.Proof.Ideal.R1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two regions' proof data, chained

Region 0 runs on the buffers the host operations leave; region 1 on the same buffers with `main_v47` at what region 0's
write-backs leave in it. Of each array read through two windows the first window holds the left half of the share and
the second the right half. -/

/-- Region 0's input shares: `main_v46` through window 0 (left half) and window 1 (right half). -/
def qs0 : Fin 3 → PosShare TreeShare := fun | 0 => fullShare.left | 1 => fullShare.right | _ => fullShare
/-- Region 1's input shares: `main_v46` through windows 0 and 2, `main_v47` through windows 1 and 3. -/
def qs1 : Fin 5 → PosShare TreeShare := fun | 0 => fullShare.left | 1 => fullShare.left | 2 => fullShare.right | 3 => fullShare.right | _ => fullShare

/-- Region 0's proof data. -/
abbrev datA (c : Dev nD) : Dat τ (Elt F) Unit ℕ (UR sig nD τ) ℕ cfg0 c := dat0 (Vin0 m) qs0 c

/-- The buffers as region 1 finds them: the host operations' results, `main_v47` at region 0's result. -/
def Vmid (c : Dev nD) (b : Ref sig .tc) : Buf (Elt F) ((c : Thread nD τ).loc b) :=
  Function.update (Gen.V1 m c) (Proc.devRef .tc main_v47) ((datA m c).arrAt 2 cfg0.N) (Proc.devRef .tc b)

/-- Region 1's proof data. -/
abbrev datB (c : Dev nD) : Dat τ (Elt F) Unit ℕ (UR sig nD τ) ℕ cfg1 c := dat1 (Vmid m) qs1 c

/-- Both, as the family the run is stated over. -/
def pdatsOf : PDats F
  | ⟨0, _⟩ => fun c => datA m c
  | ⟨1, _⟩ => fun c => datB m c

theorem pdatsOf_zero (c : Dev nD) : pdatsOf m 0 c = datA m c := rfl
theorem pdatsOf_one (c : Dev nD) : pdatsOf m 1 c = datB m c := rfl

theorem Vin1_eq (c : Dev nD) (b : Ref sig .tc) : Vin1 m (pdatsOf m) c b = Vmid m c b := by
  show Function.update (Gen.V1 m c) (Proc.devRef .tc main_v47) (outsOf m (pdatsOf m) 2 main_v47 c) (Proc.devRef .tc b) = _
  rw [outsOf_sq]; rfl

/-- What the glue asks of the data, from the two regions' body proofs. -/
theorem dataFacts : DataFacts m (pdatsOf m) where
  A0 c w := A_eq0 (Vin0 m) qs0 c w
  A1 c w := (A_eq1 (Vmid m) qs1 c w).trans (Vin1_eq m c _).symm
  q0_0 _ := rfl
  q0_1 _ := rfl
  q1_0 _ := rfl
  q1_2 _ := rfl
  q1_1 _ := rfl
  q1_3 _ := rfl
  body0 c := body_obligation0 (Vin0 m) qs0 c
  body1 c := body_obligation1 (Vmid m) qs1 c
  in0 c := hin0 (Vin0 m) qs0 c
  in1 c := hin1 (Vmid m) qs1 c
  out0 c := hout0 (Vin0 m) qs0 c
  out1 c := hout1 (Vmid m) qs1 c
  owed0 _ _ := rfl
  owed1 _ _ := rfl
  rec0 _ _ := rfl
  rec1 _ _ := rfl

variable (ρ : Dev nD → PrngReg)

/-- The run: it terminates, nothing faults, the result array ends at what region 1's write-backs leave, the arguments as launched. -/
theorem run_main : θ_run defs (onTc (τ := τ) (main (F := F))) ⟨m, fun _ => 0, ρ⟩ (fun r => ∀ c : Dev nD,
      r.2.mem ((c.tc : Thread nD τ).loc main_v48) = (pdatsOf m 1 c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of_data ρ (dataFacts m)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_data ρ (dataFacts m)

end Cert.KernelIdeal.Hand

end
-- ==== Proof.Ideal.R0Pieces.lean ====
import proofs.«163472_j66348654788876_2_alg».proof.Proof.Ideal.R0Data
import Idealize.ShloMosaic.Lib.Pipeline.Value

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each control case leaves, as the body's arithmetic of what it read

With `acc` the accumulator's contents and `x0`, `x1` the two input blocks, one reduction step leaves
`k0_pay2 acc x0 x1 = acc + x0 · x1` in the accumulator; at `k = 0` the step starts from the zero fill `k0_pay1`;
at `k = 7` the output's buffer receives `k0_pay3` (the rounding to bf16) of the step's result. -/

theorem hz0 : (![0, 0] : Fin 2 → Nat) = fun _ => 0 := funext fun a => by fin_cases a <;> rfl

/-- At `k = 0` the accumulator is left at the step from the zero fill: the fill is stored, read back whole, and the
    product of the two blocks added to it. -/
theorem sout0_A_0_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz0, View.readCov_unit_zero (S := S1024x1024) _ hz0]
  simp only [View.readAt_eq_ld, h3.read_unread, h4.read_unread, View.ld_unit_zero (S := S1024x1024) hz0]

/-- At `0 < k < 7` the accumulator is left at the step from what it held. -/
theorem sout0_B_0_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i) (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz0]
  simp only [View.readAt_eq_ld, h3.read_unread, h4.read_unread, h6.read_unread, View.ld_unit_zero (S := S1024x1024) hz0]

/-- At `k = 7` the accumulator is left at the step from what it held. -/
theorem sout0_C_0_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz0]
  simp only [View.readAt_eq_ld, h3.read_unread, h4.read_unread, h6.read_unread, View.ld_unit_zero (S := S1024x1024) hz0]

/-- At `k = 7` the output's staging buffer is left at that step's result, read back whole and rounded to bf16. -/
theorem out0_C_2_eq (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 x1 : Vec F S1024x1024 .bf16) (xs0 : Vec F S1024x1024 .f32) :
    out0_C_2 c i a3 h3 a4 h4 a5 h5 a6 h6 hc0 hc1 x0 x1 xs0 = k0_pay3 (k0_pay2 xs0 x0 x1) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz0, View.readCov_unit_zero (S := S1024x1024) _ hz0]
  simp only [View.readAt_eq_ld, h3.read_unread, h4.read_unread, h6.read_unread, View.ld_unit_zero (S := S1024x1024) hz0]

end Cert.KernelIdeal.Hand

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Ideal.Payloads.lean ====
/-
  The values the two blocked products store, read at an entry, on the extended reals.

  Each product starts its accumulator from the zero matrix, adds to it one block's contraction
  `∑ kk, lhs[p, kk] · rhs[kk, q]` (a matrix product into a zero accumulator), and hands the accumulator on unchanged
  when it changes format. The last stage of the second product combines the three matrices entry by entry,
  `θ · ((x + y) + z) + δ · α`, where `δ` is 1 on the diagonal of the whole matrix and 0 off it: the block's row and column
  offsets are 1024 times its grid coordinates, all numbers far below 2³², so the 32-bit comparison of row with column
  is the comparison of the numbers.
-/
import proofs.«163472_j66348654788876_2_alg».proof.Proof.Gen.KernelIdeal.Skeleton
import proofs.«163472_j66348654788876_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.SL.Sem Idealize.ShloMosaic.ValueIdx

/-- The first product's accumulator starts from zero. -/
theorem pay0_1 (p q : Fin 1024) : k0_pay1 (F := Ideal) (ix2 p q) = 0 := by
  unfold k0_pay1
  simp only [shapeCast_self]
  exact Ideal.ofBits_zero_f32

/-- One step of the first product: the accumulator plus the block's contraction over its 1024 columns. -/
theorem pay0_2 (v3 : Vec Ideal S1024x1024 .f32) (v4 v6 : Vec Ideal S1024x1024 .bf16) (p q : Fin 1024) :
    k0_pay2 (F := Ideal) v3 v4 v6 (ix2 p q) = v3 (ix2 p q) + ∑ kk : Fin 1024, v4 (ix2 p kk) * v6 (ix2 kk q) := by
  unfold k0_pay2
  simp only [shapeCast_self]
  refine congrArg (v3 (ix2 p q) + ·) ?_
  exact matmul_plain_zero_apply dot_S1024x1024_S1024x1024_S1024x1024_1_0_0_1_n_n rfl none v4 v6 p q

/-- The first product's result is its accumulator: the change of format is the identity. -/
theorem pay0_3 (v16 : Vec Ideal S1024x1024 .f32) (p q : Fin 1024) :
    k0_pay3 (F := Ideal) v16 (ix2 p q) = v16 (ix2 p q) := rfl

/-- The second product's accumulator starts from zero. -/
theorem pay1_1 (p q : Fin 1024) : k1_pay1 (F := Ideal) (ix2 p q) = 0 := by
  unfold k1_pay1
  simp only [shapeCast_self]
  exact Ideal.ofBits_zero_f32

/-- One step of the second product: the accumulator plus the block's contraction over its 256 columns. -/
theorem pay1_2 (v3 : Vec Ideal S1024x1024 .f32) (v4 : Vec Ideal S1024x256 .bf16) (v6 : Vec Ideal S256x1024 .bf16)
    (p q : Fin 1024) :
    k1_pay2 (F := Ideal) v3 v4 v6 (ix2 p q) = v3 (ix2 p q) + ∑ kk : Fin 256, v4 (ix2 p kk) * v6 (ix2 kk q) := by
  unfold k1_pay2
  simp only [shapeCast_self]
  refine congrArg (v3 (ix2 p q) + ·) ?_
  exact matmul_plain_zero_apply dot_S1024x256_S256x1024_S1024x1024_1_0_0_1_n_n rfl none v4 v6 p q

/-- Two 32-bit words that hold `1024 · a + p` and `1024 · b + q`, with `a, b` below 8 and `p, q` below 1024, are equal
    exactly when the numbers are: nothing wraps. -/
theorem diag_word (a b : ℕ) (ha : a < 8) (hb : b < 8) (p q : Fin 1024) :
    IntOp.cmpi .eq (IntOp.addi (Scalar.muli (BitVec.ofNat 32 a) 1024#32) (BitVec.ofNat 32 p.val))
        (IntOp.addi (Scalar.muli (BitVec.ofNat 32 b) 1024#32) (BitVec.ofNat 32 q.val))
      = BitVec.ofBool (decide (1024 * a + p.val = 1024 * b + q.val)) := by
  have hp := p.isLt
  have hq := q.isLt
  unfold IntOp.cmpi IntOp.addi Scalar.muli IntOp.muli
  refine congrArg BitVec.ofBool ?_
  rw [Bool.eq_iff_iff, beq_iff_eq, decide_eq_true_iff, ← BitVec.toNat_inj]
  simp only [BitVec.toNat_add, BitVec.toNat_mul, BitVec.toNat_ofNat]
  omega

/-- A one-bit word widened to 32 bits and read as a signed integer is 1 or 0. -/
theorem bit_toInt (c : Bool) : (((BitVec.ofBool c).setWidth 32).toInt : ℝ) = if c then 1 else 0 := by
  cases c <;> simp

/-- The row counter of a 1024 × 1024 block reads the row … -/
theorem iota_row (p q : Fin 1024) :
    iota .tc S1024x1024 32 [0] iota_S1024x1024_d0_w32 (ix2 p q) = BitVec.ofNat 32 p.val :=
  iota_single_apply .tc S1024x1024 32 0 iota_S1024x1024_d0_w32 (ix2 p q)
/-- … and the column counter the column. -/
theorem iota_col (p q : Fin 1024) :
    iota .tc S1024x1024 32 [1] iota_S1024x1024_d1_w32 (ix2 p q) = BitVec.ofNat 32 q.val :=
  iota_single_apply .tc S1024x1024 32 1 iota_S1024x1024_d1_w32 (ix2 p q)

/-- The last stage: `θ · ((x + y) + z) + δ · α` with `δ` the diagonal of the whole matrix, the block at grid position
    `(i 0, i 1)` holding rows `1024 · i 0 + p` and columns `1024 · i 1 + q`. -/
theorem pay1_3 (i : grid1.Coords) (v29 : Vec Ideal S1024x1024 .f32) (v30 v34 : Vec Ideal S1024x1024 .bf16) (p q : Fin 1024) :
    k1_pay3 (F := Ideal) i v29 v30 v34 (ix2 p q)
      = Ideal.ofBits .f32 0x3E75C28F#32 * ((v29 (ix2 p q) + v30 (ix2 p q)) + v34 (ix2 p q))
        + (if 1024 * (i 0).val + p.val = 1024 * (i 1).val + q.val then (1 : EReal) else 0) * Ideal.ofBits .f32 0x3ECCCCCD#32 := by
  have h0 : (i 0).val < 8 := (i 0).isLt
  have h1 : (i 1).val < 8 := (i 1).isLt
  unfold k1_pay3
  simp only [shapeCast_self]
  show Ideal.ofBits .f32 0x3E75C28F#32 * ((v29 (ix2 p q) + v30 (ix2 p q)) + v34 (ix2 p q))
      + ((((IntOp.cmpi .eq
              (IntOp.addi (Scalar.muli (BitVec.ofNat 32 (i 0).val) 1024#32)
                (iota .tc S1024x1024 32 [0] iota_S1024x1024_d0_w32 (ix2 p q)))
              (IntOp.addi (Scalar.muli (BitVec.ofNat 32 (i 1).val) 1024#32)
                (iota .tc S1024x1024 32 [1] iota_S1024x1024_d1_w32 (ix2 p q)))).setWidth 32).toInt : ℝ) : EReal)
        * Ideal.ofBits .f32 0x3ECCCCCD#32 = _
  rw [iota_row, iota_col, diag_word _ _ h0 h1, bit_toInt]
  by_cases h : 1024 * (i 0).val + p.val = 1024 * (i 1).val + q.val <;> simp [h]

end Cert.KernelIdeal.Pay

end
-- ==== Proof.Spec.lean ====
/-
  The value both programs compute, index by index, on the extended reals.

  With `A` a square matrix of extent 8192, `θ` and `α` two scalars and `eye` the identity matrix, the diffusion
  matrix is `θ · ((A + A·A) + A·(A·A)) + α · eye`, every product a full contraction over the 8192 columns.
  A blocked evaluation forms `A·A` by a running accumulator over 8 column blocks of 1024 (starting from `0`), then
  `A·(A·A)` the same way over 32 blocks of 256, and combines them as `θ · ((A³ + A) + A²) + eye · α`.
  The two agree by commutativity and associativity of `+` and `·` and the regrouping of finite sums: the extended
  reals are a commutative additive monoid, so no finiteness is asked of the entries.
-/
import Idealize.ShloMosaic.Lib.ValueIdx
import Mathlib.Algebra.BigOperators.Fin

noncomputable section

open scoped BigOperators

namespace Cert.Spec

/-- The identity matrix. -/
def eye (r e : Fin 8192) : EReal := if r = e then 1 else 0

/-- `θ · ((A + A·A) + A·(A·A)) + α · eye` at row `r`, column `e`. -/
def diffusion (θ α : EReal) (A : Fin 8192 → Fin 8192 → EReal) (r e : Fin 8192) : EReal :=
  θ * ((A r e + ∑ k, A r k * A k e) + ∑ k, A r k * (∑ l, A k l * A l e)) + α * eye r e

/-- The running accumulator after block `n`: it starts from `0` and adds one block's contribution at a time. -/
def accum (d : ℕ → EReal) : ℕ → EReal
  | 0 => 0 + d 0
  | n + 1 => accum d n + d (n + 1)

/-- Column `B · kb + kk`: column `kk` of block `kb`, the blocks `B` wide (the remainder only makes it total). -/
def blk (B : ℕ) (kb : ℕ) (kk : Fin B) : Fin 8192 := ⟨(B * kb + kk.val) % 8192, Nat.mod_lt _ (by norm_num)⟩

/-- `A·A` accumulated over 8 column blocks of 1024. -/
def sq (A : Fin 8192 → Fin 8192 → EReal) (r e : Fin 8192) : EReal :=
  accum (fun kb => ∑ kk : Fin 1024, A r (blk 1024 kb kk) * A (blk 1024 kb kk) e) 7

/-- `A·(A·A)` accumulated over 32 column blocks of 256, the inner product the blocked one. -/
def cube (A : Fin 8192 → Fin 8192 → EReal) (r e : Fin 8192) : EReal :=
  accum (fun kb => ∑ kk : Fin 256, A r (blk 256 kb kk) * sq A (blk 256 kb kk) e) 31

/-- The accumulator after block `n` is the sum of the contributions of blocks `0 … n`. -/
theorem accum_eq_sum (d : ℕ → EReal) (n : ℕ) : accum d n = ∑ kb ∈ Finset.range (n + 1), d kb := by
  induction n with
  | zero => rw [accum, zero_add, Finset.sum_range_one]
  | succ n ih => rw [accum, ih, Finset.sum_range_succ _ (n + 1)]

/-- `T` blocks of `B` columns tile the 8192 columns: summing block by block is summing over all columns. -/
theorem sum_blocks {M : Type*} [AddCommMonoid M] (T B : ℕ) (h : T * B = 8192) (f : Fin 8192 → M) :
    ∑ kb ∈ Finset.range T, ∑ kk : Fin B, f (blk B kb kk) = ∑ k, f k := by
  rw [Finset.sum_range (fun kb => ∑ kk : Fin B, f (blk B kb kk)),
    ← Equiv.sum_comp (finProdFinEquiv.trans (finCongr h)) f, Fintype.sum_prod_type]
  refine Finset.sum_congr rfl fun t _ => Finset.sum_congr rfl fun b _ => ?_
  congr 1
  apply Fin.ext
  have hb : B * t.val + B ≤ B * T := by rw [← Nat.mul_succ]; exact Nat.mul_le_mul_left B t.isLt
  rw [Nat.mul_comm B T, h] at hb
  have hk := b.isLt
  show (B * t.val + b.val) % 8192 = b.val + B * t.val
  rw [Nat.mod_eq_of_lt (by omega)]
  omega

theorem sq_eq (A : Fin 8192 → Fin 8192 → EReal) (r e : Fin 8192) : sq A r e = ∑ k : Fin 8192, A r k * A k e :=
  (accum_eq_sum _ 7).trans (sum_blocks 8 1024 (by norm_num) (fun k => A r k * A k e))

theorem cube_eq (A : Fin 8192 → Fin 8192 → EReal) (r e : Fin 8192) :
    cube A r e = ∑ k : Fin 8192, A r k * (∑ l, A k l * A l e) := by
  refine ((accum_eq_sum _ 31).trans (sum_blocks 32 256 (by norm_num) (fun k => A r k * sq A k e))).trans ?_
  exact Finset.sum_congr rfl fun k _ => by rw [sq_eq]

/-- The blocked evaluation's combination is the diffusion matrix. -/
theorem kernel_eq_diffusion (θ α : EReal) (A : Fin 8192 → Fin 8192 → EReal) (r e : Fin 8192) :
    θ * ((cube A r e + A r e) + sq A r e) + eye r e * α = diffusion θ α A r e := by
  rw [cube_eq, sq_eq, diffusion, mul_comm (eye r e) α, add_comm _ (A r e), add_right_comm]

end Cert.Spec

end
-- ==== Proof.Ideal.R0Value.lean ====
import proofs.«163472_j66348654788876_2_alg».proof.Proof.Ideal.R0Pieces
import proofs.«163472_j66348654788876_2_alg».proof.Proof.Ideal.Payloads
import proofs.«163472_j66348654788876_2_alg».proof.Proof.Spec
import Idealize.ShloMosaic.Lib.Pipeline.Value
import Idealize.ShloMosaic.Lib.ValueIdx
import Idealize.ShloMosaic.PureOps.Ideal.Laws

-- membership in a rectangle of 1024 x 1024 extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # Region 0 over the extended reals: the array it writes is the blocked square of the array it reads

With `A` the 8192 x 8192 matrix the region reads (both matmul operands are blocks of it), grid point
`t = 64·i + 8·j + k` adds to the accumulator of output block `(i, j)` the product of block `(i, k)` and block
`(k, j)`; after `k = 7` the accumulator, and with it the output block, holds at `(p, q)` the running sum over the 8
column blocks of `∑ kk, A (1024 i + p) (1024 kb + kk) · A (1024 kb + kk) (1024 j + q)`. -/

section
variable (V : (c : Dev nD) → (b : Ref sig .tc) → Buf (Elt Ideal) ((c : Thread nD τ).loc b))

/-- The matrix the region reads, by row and column. -/
abbrev A0 (c : Dev nD) : Fin 8192 → Fin 8192 → EReal := fun p q => V c main_v46 (ix2 p q)

/-- Column block `kb`'s contribution to entry `(r, e)` of the square. -/
abbrev D0 (c : Dev nD) (r e : Fin 8192) : ℕ → EReal :=
  fun kb => ∑ kk : Fin 1024, A0 V c r (Cert.Spec.blk 1024 kb kk) * A0 V c (Cert.Spec.blk 1024 kb kk) e

/-! ## Where the blocks sit -/

/-- The windows' block indices at point `t = 64·i + 8·j + k`: window 0 reads block `(i, k)`, window 1 block `(k, j)`,
    window 2 writes block `(i, j)`. -/
theorem idx0 : ∀ t : Fin cfg0.N, win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = t.val / 64 ∧ win0_2.index t (1 : Fin 2) = t.val / 8 % 8 :=
  (by decide +kernel : ∀ t : Fin grid0.N, _)

/-- Window 0's block at point `t`, at `(p, kk)`, is the matrix at row `1024·i + p`, column `1024·k + kk`. -/
theorem iblk0_0_apply (c : Dev nD) (t : Fin cfg0.N) (p kk : Fin 1024) (r kc : Fin 8192)
    (hr : r.val = 1024 * (t.val / 64) + p.val) (hk : kc.val = 1024 * (t.val % 8) + kk.val) :
    (iblk0 V c 0 t : Vec Ideal S1024x1024 .bf16) (ix2 p kk) = V c main_v46 (ix2 r kc) := by
  obtain ⟨e0, e1, -⟩ := idx0 t
  unfold iblk0
  rw [View.read_apply]
  show V c main_v46 _ = V c main_v46 _
  congr 1
  funext a
  apply Fin.ext
  match a with
  | ⟨0, _⟩ => show win0_0.index t (0 : Fin 2) * 1024 + 1 * p.val = r.val; rw [e0]; omega
  | ⟨1, _⟩ => show win0_0.index t (1 : Fin 2) * 1024 + 1 * kk.val = kc.val; rw [e1]; omega

/-- Window 1's block at point `t`, at `(kk, q)`, is the matrix at row `1024·k + kk`, column `1024·j + q`. -/
theorem iblk0_1_apply (c : Dev nD) (t : Fin cfg0.N) (kk q : Fin 1024) (kc e : Fin 8192)
    (hk : kc.val = 1024 * (t.val % 8) + kk.val) (he : e.val = 1024 * (t.val / 8 % 8) + q.val) :
    (iblk0 V c 1 t : Vec Ideal S1024x1024 .bf16) (ix2 kk q) = V c main_v46 (ix2 kc e) := by
  obtain ⟨-, -, e2, e3, -⟩ := idx0 t
  unfold iblk0
  rw [View.read_apply]
  show V c main_v46 _ = V c main_v46 _
  congr 1
  funext a
  apply Fin.ext
  match a with
  | ⟨0, _⟩ => show win0_1.index t (0 : Fin 2) * 1024 + 1 * kk.val = kc.val; rw [e2]; omega
  | ⟨1, _⟩ => show win0_1.index t (1 : Fin 2) * 1024 + 1 * q.val = e.val; rw [e3]; omega

/-! ## One reduction step at an element -/

/-- The step at point `t` from accumulator contents `acc`, at `(p, q)`: `acc (p, q)` plus column block `k`'s
    contribution to entry `(1024·i + p, 1024·j + q)`. -/
theorem step0_apply (c : Dev nD) (t : Fin cfg0.N) (acc : Vec Ideal S1024x1024 .f32) (p q : Fin 1024) (r e : Fin 8192)
    (hr : r.val = 1024 * (t.val / 64) + p.val) (he : e.val = 1024 * (t.val / 8 % 8) + q.val) :
    k0_pay2 (F := Ideal) acc (iblk0 V c 0 t) (iblk0 V c 1 t) (ix2 p q) = acc (ix2 p q) + D0 V c r e (t.val % 8) := by
  refine (Cert.KernelIdeal.Pay.pay0_2 acc (iblk0 V c 0 t) (iblk0 V c 1 t) p q).trans ?_
  refine congrArg (acc (ix2 p q) + ·) (Finset.sum_congr rfl fun kk _ => ?_)
  have hkk : kk.val < 1024 := kk.isLt
  have hb : (Cert.Spec.blk 1024 (t.val % 8) kk).val = 1024 * (t.val % 8) + kk.val := by
    show (1024 * (t.val % 8) + kk.val) % 8192 = _
    omega
  have e1 := iblk0_0_apply V c t p kk r (Cert.Spec.blk 1024 (t.val % 8) kk) hr hb
  have e2 := iblk0_1_apply V c t kk q (Cert.Spec.blk 1024 (t.val % 8) kk) e hb he
  rw [e1, e2]

/-! ## The invariant: the accumulator after point `n` -/

/-- After point `n = 64·i + 8·j + k` the accumulator holds at `(p, q)` the running sum, over the column blocks
    `0 … k`, of their contributions to entry `(1024·i + p, 1024·j + q)` of the square. -/
theorem acc0_eq (c : Dev nD) (n : ℕ) : ∀ (h : n < cfg0.N) (p q : Fin 1024) (r e : Fin 8192),
    r.val = 1024 * (n / 64) + p.val → e.val = 1024 * (n / 8 % 8) + q.val →
    (outsAt0 V c n h).2 (ix2 p q) = Cert.Spec.accum (D0 V c r e) (n % 8) := by
  induction n with
  | zero =>
    intro h p q r e hr he
    have h0 : (⟨0, h⟩ : Fin cfg0.N).val % 8 = 0 := rfl
    have h1 : ¬(⟨0, h⟩ : Fin cfg0.N).val % 8 = 7 := by dsimp only; omega
    rw [outsAt0_A V c ⟨0, h⟩ h0 h1]
    dsimp only
    rw [sout0_A_0_eq]
    refine (step0_apply V c ⟨0, h⟩ (k0_pay1 (F := Ideal)) p q r e hr he).trans ?_
    rw [Cert.KernelIdeal.Pay.pay0_1]
    rfl
  | succ n ih =>
    intro h p q r e hr he
    by_cases h0 : (n + 1) % 8 = 0
    · have h1 : ¬(n + 1) % 8 = 7 := by omega
      rw [outsAt0_A V c ⟨n + 1, h⟩ h0 h1]
      dsimp only
      rw [sout0_A_0_eq]
      refine (step0_apply V c ⟨n + 1, h⟩ (k0_pay1 (F := Ideal)) p q r e hr he).trans ?_
      rw [Cert.KernelIdeal.Pay.pay0_1]
      show 0 + D0 V c r e ((n + 1) % 8) = Cert.Spec.accum (D0 V c r e) ((n + 1) % 8)
      rw [h0]
      rfl
    · have hk : (n + 1) % 8 = n % 8 + 1 := by omega
      have hprev := ih (Nat.lt_of_succ_lt h) p q r e (by omega) (by omega)
      by_cases h1 : (n + 1) % 8 = 7
      · rw [outsAt0_C V c ⟨n + 1, h⟩ h0 h1]
        dsimp only
        rw [sout0_C_0_eq]
        refine (step0_apply V c ⟨n + 1, h⟩ (outsAt0 V c n (Nat.lt_of_succ_lt h)).2 p q r e hr he).trans ?_
        show (outsAt0 V c n (Nat.lt_of_succ_lt h)).2 (ix2 p q) + D0 V c r e ((n + 1) % 8) = Cert.Spec.accum (D0 V c r e) ((n + 1) % 8)
        rw [hprev, hk]
        rfl
      · rw [outsAt0_B V c ⟨n + 1, h⟩ h0 h1]
        dsimp only
        rw [sout0_B_0_eq]
        refine (step0_apply V c ⟨n + 1, h⟩ (outsAt0 V c n (Nat.lt_of_succ_lt h)).2 p q r e hr he).trans ?_
        show (outsAt0 V c n (Nat.lt_of_succ_lt h)).2 (ix2 p q) + D0 V c r e ((n + 1) % 8) = Cert.Spec.accum (D0 V c r e) ((n + 1) % 8)
        rw [hprev, hk]
        rfl

/-- At a point with `k = 7` the output's staging buffer holds at `(p, q)` entry `(1024·i + p, 1024·j + q)` of the
    blocked square: the accumulator's last value, the rounding being the identity on the extended reals. -/
theorem out0_apply (c : Dev nD) (t : Fin cfg0.N) (h7 : t.val % 8 = 7) (p q : Fin 1024) (r e : Fin 8192)
    (hr : r.val = 1024 * (t.val / 64) + p.val) (he : e.val = 1024 * (t.val / 8 % 8) + q.val) :
    (outsAt0 V c t.val t.isLt).1 (ix2 p q) = Cert.Spec.sq (A0 V c) r e := by
  have h0 : ¬t.val % 8 = 0 := by omega
  have hacc := acc0_eq V c t.val t.isLt p q r e hr he
  rw [outsAt0_C V c t h0 h7] at hacc ⊢
  dsimp only at hacc ⊢
  rw [sout0_C_0_eq] at hacc
  rw [out0_C_2_eq]
  refine (Cert.KernelIdeal.Pay.pay0_3 _ p q).trans ?_
  rw [hacc, h7]
  rfl

/-! ## From the blocks to the array -/

variable (qs : Fin 3 → PosShare TreeShare)

/-- What the region's output array ends holding: the blocked square of the matrix it read. -/
def G0 (c : Dev nD) : Buf (Elt Ideal) ((c : Thread nD τ).loc main_v47) :=
  fun i => Cert.Spec.sq (A0 V c) (i 0) (i 1)

/-- What a point with `k = 7` writes back is its block of `G0`. -/
theorem flushed0_eq (c : Dev nD) (t : Fin cfg0.N) (hf : (cfg0.win 2).flush t = true) :
    (dat0 V qs c).flushed 2 t = ((cfg0.win 2).blk t).view.read (Elt Ideal) (G0 V c) := by
  have h7 : t.val % 8 = 7 := (flush0_2 t).mp hf
  obtain ⟨-, -, -, -, e4, e5⟩ := idx0 t
  show (cfg0.win 2).cut (grid0.coords t) ((dat0 V qs c).after 2 t) = _
  rw [after0_2]
  funext y
  rw [View.read_apply]
  have hy0 : (y 0).val < 1024 := (y 0).isLt
  have hy1 : (y 1).val < 1024 := (y 1).isLt
  refine (congrArg (outsAt0 V c t.val t.isLt).1 (eq_ix2 y)).trans ?_
  exact out0_apply V c t h7 (y 0) (y 1) _ _
    (by show win0_2.index t (0 : Fin 2) * 1024 + 1 * (y 0).val = _; rw [e4]; omega)
    (by show win0_2.index t (1 : Fin 2) * 1024 + 1 * (y 1).val = _; rw [e5]; omega)

/-- Every entry of the output array is in the block of the point `64·(r / 1024) + 8·(e / 1024) + 7`, which writes back. -/
theorem cover0 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 512 := N_0
  let t : Fin cfg0.N := ⟨64 * ((i 0).val / 1024) + 8 * ((i 1).val / 1024) + 7, by rw [hN]; omega⟩
  have ht : t.val = 64 * ((i 0).val / 1024) + 8 * ((i 1).val / 1024) + 7 := rfl
  obtain ⟨-, -, -, -, e4, e5⟩ := idx0 t
  refine ⟨t, (flush0_2 t).mpr (by rw [ht]; omega), ?_⟩
  show i ∈ ((View.whole main_v47).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024
              rw [e4, ht]; omega
  | ⟨1, _⟩ => show win0_2.index t (1 : Fin 2) * 1024 ≤ (i 1).val ∧ (i 1).val < win0_2.index t (1 : Fin 2) * 1024 + 1024
              rw [e5, ht]; omega

/-- THE ARRAY after the region: the blocked square of the matrix it read. -/
theorem final0_arr (c : Dev nD) : (dat0 V qs c).arrAt 2 cfg0.N = G0 V c :=
  (dat0 V qs c).arrAt_eq_of_cover 2 (G0 V c) (flushed0_eq V qs c) cover0

/-- Entry by entry. -/
theorem final0 (c : Dev nD) (r e : Fin 8192) :
    (dat0 V qs c).arrAt 2 cfg0.N (ix2 r e) = Cert.Spec.sq (fun p q => V c main_v46 (ix2 p q)) r e :=
  congrFun (final0_arr V qs c) (ix2 r e)

end

end Cert.KernelIdeal.Hand

end
-- ==== Proof.Ideal.R1Pieces.lean ====
import proofs.«163472_j66348654788876_2_alg».proof.Proof.Ideal.R1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each control case leaves, as the body's arithmetic of what it read

With `acc` the accumulator's contents and `x0`, `x1` the two operand blocks, one reduction step leaves
`k1_pay2 acc x0 x1 = acc + x0 · x1` in the accumulator; at `k = 0` the step starts from the zero fill `k1_pay1`;
at `k = 31` the output's buffer receives `k1_pay3` (the combination with the two epilogue blocks `x2`, `x3` and the
diagonal) of the step's result. -/

theorem hz1 : (![0, 0] : Fin 2 → Nat) = fun _ => 0 := funext fun a => by fin_cases a <;> rfl

/-- At `k = 0` the accumulator is left at the step from the zero fill: the fill is stored, read back whole, and the
    product of the two blocks added to it. -/
theorem sout1_A_0_eq (c : Dev nD) (i : grid1.Coords) (a3 : Memref sig .tc .vmem S1024x256 .bf16) (h3 : a3.IsWhole) (a4 : Memref sig .tc .vmem S256x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : cond1_0 i) (hc1 : ¬cond1_1 i) (x0 : Vec F S1024x256 .bf16) (x1 : Vec F S256x1024 .bf16) (x2 x3 : Vec F S1024x1024 .bf16) :
    sout1_A_0 c i a3 h3 a4 h4 a5 h5 a6 h6 a7 h7 a8 h8 hc0 hc1 x0 x1 x2 x3 = k1_pay2 (k1_pay1 (F := F)) x0 x1 := by
  unfold sout1_A_0
  rw [View.read_writes_eq_canon _ _ _ (scover1_A_0 c i a3 h3 a4 h4 a5 h5 a6 h6 a7 h7 a8 h8 hc0 hc1 x0 x1 x2 x3)]
  unfold kernelRun1_A
  dsimp only
  sl_unfold_words
  rw [View.canon_cons_unit_zero (S := S1024x1024) hz1, View.readCov_unit_zero (S := S1024x1024) _ hz1]
  simp only [View.readAt_eq_ld, h3.read_unread, h4.read_unread, View.ld_unit_zero (S := S1024x1024) hz1, View.ld_unit_zero (S := S1024x256) hz1, View.ld_unit_zero (S := S256x1024) hz1]

/-- At `0 < k < 31` the accumulator is left at the step from what it held. -/
theorem sout1_B_0_eq (c : Dev nD) (i : grid1.Coords) (a3 : Memref sig .tc .vmem S1024x256 .bf16) (h3 : a3.IsWhole) (a4 : Memref sig .tc .vmem S256x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond1_0 i) (hc1 : ¬cond1_1 i) (x0 : Vec F S1024x256 .bf16) (x1 : Vec F S256x1024 .bf16) (x2 x3 : Vec F S1024x1024 .bf16) (xs0 : Vec F S1024x1024 .f32) :
    sout1_B_0 c i a3 h3 a4 h4 a5 h5 a6 h6 a7 h7 a8 h8 hc0 hc1 x0 x1 x2 x3 xs0 = k1_pay2 xs0 x0 x1 := by
  unfold sout1_B_0
  rw [View.read_writes_eq_canon _ _ _ (scover1_B_0 c i a3 h3 a4 h4 a5 h5 a6 h6 a7 h7 a8 h8 hc0 hc1 x0 x1 x2 x3 xs0)]
  unfold kernelRun1_B
  dsimp only
  sl_unfold_words
  rw [View.canon_unit_zero hz1]
  simp only [View.readAt_eq_ld, h3.read_unread, h4.read_unread, h8.read_unread, View.ld_unit_zero (S := S1024x1024) hz1, View.ld_unit_zero (S := S1024x256) hz1, View.ld_unit_zero (S := S256x1024) hz1]

/-- At `k = 31` the accumulator is left at the step from what it held, -/
theorem sout1_C_0_eq (c : Dev nD) (i : grid1.Coords) (a3 : Memref sig .tc .vmem S1024x256 .bf16) (h3 : a3.IsWhole) (a4 : Memref sig .tc .vmem S256x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond1_0 i) (hc1 : cond1_1 i) (x0 : Vec F S1024x256 .bf16) (x1 : Vec F S256x1024 .bf16) (x2 x3 : Vec F S1024x1024 .bf16) (xs0 : Vec F S1024x1024 .f32) :
    sout1_C_0 c i a3 h3 a4 h4 a5 h5 a6 h6 a7 h7 a8 h8 hc0 hc1 x0 x1 x2 x3 xs0 = k1_pay2 xs0 x0 x1 := by
  unfold sout1_C_0
  rw [View.read_writes_eq_canon _ _ _ (scover1_C_0 c i a3 h3 a4 h4 a5 h5 a6 h6 a7 h7 a8 h8 hc0 hc1 x0 x1 x2 x3 xs0)]
  unfold kernelRun1_C
  dsimp only
  sl_unfold_words
  rw [View.canon_unit_zero hz1]
  simp only [View.readAt_eq_ld, h3.read_unread, h4.read_unread, h8.read_unread, View.ld_unit_zero (S := S1024x1024) hz1, View.ld_unit_zero (S := S1024x256) hz1, View.ld_unit_zero (S := S256x1024) hz1]

/-- and the output's staging buffer at that result, read back whole and combined with the two epilogue blocks and the
    diagonal. -/
theorem out1_C_4_eq (c : Dev nD) (i : grid1.Coords) (a3 : Memref sig .tc .vmem S1024x256 .bf16) (h3 : a3.IsWhole) (a4 : Memref sig .tc .vmem S256x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .f32) (h7 : a7.IsWhole) (a8 : Memref sig .tc .vmem S1024x1024 .f32) (h8 : a8.IsWhole) (hc0 : ¬cond1_0 i) (hc1 : cond1_1 i) (x0 : Vec F S1024x256 .bf16) (x1 : Vec F S256x1024 .bf16) (x2 x3 : Vec F S1024x1024 .bf16) (xs0 : Vec F S1024x1024 .f32) :
    out1_C_4 c i a3 h3 a4 h4 a5 h5 a6 h6 a7 h7 a8 h8 hc0 hc1 x0 x1 x2 x3 xs0 = k1_pay3 i (k1_pay2 xs0 x0 x1) x2 x3 := by
  unfold out1_C_4
  rw [View.read_writes_eq_canon _ _ _ (cover1_C_4 c i a3 h3 a4 h4 a5 h5 a6 h6 a7 h7 a8 h8 hc0 hc1 x0 x1 x2 x3 xs0)]
  unfold kernelRun1_C
  dsimp only
  sl_unfold_words
  rw [View.canon_unit_zero hz1, View.readCov_unit_zero (S := S1024x1024) _ hz1]
  simp only [View.readAt_eq_ld, h3.read_unread, h4.read_unread, h5.read_unread, h6.read_unread, h8.read_unread, View.ld_unit_zero (S := S1024x1024) hz1, View.ld_unit_zero (S := S1024x256) hz1, View.ld_unit_zero (S := S256x1024) hz1]

end Cert.KernelIdeal.Hand

end
-- ==== Proof.Ideal.R1Value.lean ====
import proofs.«163472_j66348654788876_2_alg».proof.Proof.Ideal.R1Pieces
import proofs.«163472_j66348654788876_2_alg».proof.Proof.Ideal.Payloads
import proofs.«163472_j66348654788876_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.SL Idealize.SL.RA
open Idealize.ShloMosaic.Pipeline (Dat)
open Cert.Spec (accum blk eye)

/-! # Region 1 at the extended reals: the output array as one function of the arrays it read

The second product's grid point `t = 256·i + 32·j + k` works on the output block `(i, j)` and on column block `k` of
the left operand and row block `k` of the right one. Its accumulator holds, after the point, the sum of the
contractions of blocks `0 … k`, started from zero at `k = 0`; at `k = 31` the output block receives
`θ · ((acc + A) + A²) + δ · α` with `A`, `A²` the two arrays' own `(i, j)` blocks and `δ` the diagonal. -/

variable (V : (c : Dev nD) → (b : Ref sig .tc) → Buf (Elt Ideal) ((c : Thread nD τ).loc b))
variable (qs : Fin 5 → PosShare TreeShare)

/-- The first array the region reads (the windows 0 and 2 stage it), as a matrix of extended reals. -/
def M46 (c : Dev nD) : Fin 8192 → Fin 8192 → EReal := fun r k => V c main_v46 (ix2 r k)
/-- The second array the region reads (the windows 1 and 3 stage it), as a matrix of extended reals. -/
def M47 (c : Dev nD) : Fin 8192 → Fin 8192 → EReal := fun r k => V c main_v47 (ix2 r k)

theorem M46_apply (c : Dev nD) (r k : Fin 8192) : M46 V c r k = V c main_v46 (ix2 r k) := rfl
theorem M47_apply (c : Dev nD) (r k : Fin 8192) : M47 V c r k = V c main_v47 (ix2 r k) := rfl

/-! ## Where the windows' blocks sit -/

/-- The printed index maps and grid coordinates, decided over the grid, in terms of the point's number. -/
theorem idx_facts1 : ∀ t : Fin cfg1.N,
    win1_0.index t (0 : Fin 2) = t.val / 256 ∧ win1_0.index t (1 : Fin 2) = t.val % 32
    ∧ win1_1.index t (0 : Fin 2) = t.val % 32 ∧ win1_1.index t (1 : Fin 2) = t.val / 32 % 8
    ∧ win1_2.index t (0 : Fin 2) = t.val / 256 ∧ win1_2.index t (1 : Fin 2) = t.val / 32 % 8
    ∧ win1_3.index t (0 : Fin 2) = t.val / 256 ∧ win1_3.index t (1 : Fin 2) = t.val / 32 % 8
    ∧ win1_4.index t (0 : Fin 2) = t.val / 256 ∧ win1_4.index t (1 : Fin 2) = t.val / 32 % 8
    ∧ ((grid1.coords t) 0).val = t.val / 256 ∧ ((grid1.coords t) 1).val = t.val / 32 % 8 :=
  (by decide +kernel : ∀ t : Fin grid1.N, _)

/-- The left operand's block at point `t` is rows `1024·i …`, columns `256·k …` of the first array. -/
theorem iblk1_0_apply (c : Dev nD) (t : Fin cfg1.N) (a : Fin 1024) (b : Fin 256) (r k : Fin 8192)
    (hr : r.val = 1024 * (t.val / 256) + a.val) (hk : k.val = 256 * (t.val % 32) + b.val) :
    iblk1 V c 0 t (ix2 a b) = M46 V c r k := by
  obtain ⟨e0, e1, -⟩ := idx_facts1 t
  unfold iblk1 M46
  rw [View.read_apply]
  show V c main_v46 _ = V c main_v46 _
  congr 1
  funext x
  apply Fin.ext
  match x with
  | ⟨0, _⟩ => show win1_0.index t (0 : Fin 2) * 1024 + 1 * a.val = r.val; rw [e0, hr]; omega
  | ⟨1, _⟩ => show win1_0.index t (1 : Fin 2) * 256 + 1 * b.val = k.val; rw [e1, hk]; omega

/-- The right operand's block at point `t` is rows `256·k …`, columns `1024·j …` of the second array. -/
theorem iblk1_1_apply (c : Dev nD) (t : Fin cfg1.N) (a : Fin 256) (b : Fin 1024) (r k : Fin 8192)
    (hr : r.val = 256 * (t.val % 32) + a.val) (hk : k.val = 1024 * (t.val / 32 % 8) + b.val) :
    iblk1 V c 1 t (ix2 a b) = M47 V c r k := by
  obtain ⟨-, -, e0, e1, -⟩ := idx_facts1 t
  unfold iblk1 M47
  rw [View.read_apply]
  show V c main_v47 _ = V c main_v47 _
  congr 1
  funext x
  apply Fin.ext
  match x with
  | ⟨0, _⟩ => show win1_1.index t (0 : Fin 2) * 256 + 1 * a.val = r.val; rw [e0, hr]; omega
  | ⟨1, _⟩ => show win1_1.index t (1 : Fin 2) * 1024 + 1 * b.val = k.val; rw [e1, hk]; omega

/-- The first epilogue block at point `t` is the first array's own `(i, j)` block. -/
theorem iblk1_2_apply (c : Dev nD) (t : Fin cfg1.N) (a : Fin 1024) (b : Fin 1024) (r k : Fin 8192)
    (hr : r.val = 1024 * (t.val / 256) + a.val) (hk : k.val = 1024 * (t.val / 32 % 8) + b.val) :
    iblk1 V c 2 t (ix2 a b) = M46 V c r k := by
  obtain ⟨-, -, -, -, e0, e1, -⟩ := idx_facts1 t
  unfold iblk1 M46
  rw [View.read_apply]
  show V c main_v46 _ = V c main_v46 _
  congr 1
  funext x
  apply Fin.ext
  match x with
  | ⟨0, _⟩ => show win1_2.index t (0 : Fin 2) * 1024 + 1 * a.val = r.val; rw [e0, hr]; omega
  | ⟨1, _⟩ => show win1_2.index t (1 : Fin 2) * 1024 + 1 * b.val = k.val; rw [e1, hk]; omega

/-- The second epilogue block at point `t` is the second array's own `(i, j)` block. -/
theorem iblk1_3_apply (c : Dev nD) (t : Fin cfg1.N) (a : Fin 1024) (b : Fin 1024) (r k : Fin 8192)
    (hr : r.val = 1024 * (t.val / 256) + a.val) (hk : k.val = 1024 * (t.val / 32 % 8) + b.val) :
    iblk1 V c 3 t (ix2 a b) = M47 V c r k := by
  obtain ⟨-, -, -, -, -, -, e0, e1, -⟩ := idx_facts1 t
  unfold iblk1 M47
  rw [View.read_apply]
  show V c main_v47 _ = V c main_v47 _
  congr 1
  funext x
  apply Fin.ext
  match x with
  | ⟨0, _⟩ => show win1_3.index t (0 : Fin 2) * 1024 + 1 * a.val = r.val; rw [e0, hr]; omega
  | ⟨1, _⟩ => show win1_3.index t (1 : Fin 2) * 1024 + 1 * b.val = k.val; rw [e1, hk]; omega

/-! ## The accumulator, point by point -/

/-- Block `kb`'s contribution to entry `(r, e)` of the product: the contraction over the block's 256 columns. -/
def term1 (c : Dev nD) (r e : Fin 8192) : ℕ → EReal := fun kb =>
  ∑ kk : Fin 256, M46 V c r (blk 256 kb kk) * M47 V c (blk 256 kb kk) e

/-- The first step of a reduction, from the zero fill: block 0's contribution added to zero. -/
theorem step_first (x0 : Vec Ideal S1024x256 .bf16) (x1 : Vec Ideal S256x1024 .bf16) (p q : Fin 1024) (d : ℕ → EReal)
    (hx : ∑ kk : Fin 256, x0 (ix2 p kk) * x1 (ix2 kk q) = d 0) :
    k1_pay2 (F := Ideal) (k1_pay1 (F := Ideal)) x0 x1 (ix2 p q) = accum d 0 := by
  rw [Pay.pay1_2, Pay.pay1_1, hx]; rfl

/-- A later step: the next block's contribution added to the running sum. -/
theorem step_next (acc : Vec Ideal S1024x1024 .f32) (x0 : Vec Ideal S1024x256 .bf16) (x1 : Vec Ideal S256x1024 .bf16)
    (p q : Fin 1024) (d : ℕ → EReal) (m : ℕ) (hacc : acc (ix2 p q) = accum d m)
    (hx : ∑ kk : Fin 256, x0 (ix2 p kk) * x1 (ix2 kk q) = d (m + 1)) :
    k1_pay2 (F := Ideal) acc x0 x1 (ix2 p q) = accum d (m + 1) := by
  rw [Pay.pay1_2, hacc, hx]; rfl

/-- Two operand blocks that hold row `r` of `L` and column `e` of `R` along column block `k` contract to block `k`'s
    contribution to the product's entry `(r, e)`. -/
theorem contr_of (x0 : Vec Ideal S1024x256 .bf16) (x1 : Vec Ideal S256x1024 .bf16) (p q : Fin 1024)
    (L R : Fin 8192 → Fin 8192 → EReal) (r e : Fin 8192) (k : ℕ)
    (h0 : ∀ kk : Fin 256, x0 (ix2 p kk) = L r (blk 256 k kk)) (h1 : ∀ kk : Fin 256, x1 (ix2 kk q) = R (blk 256 k kk) e) :
    ∑ kk : Fin 256, x0 (ix2 p kk) * x1 (ix2 kk q) = ∑ kk : Fin 256, L r (blk 256 k kk) * R (blk 256 k kk) e :=
  Finset.sum_congr rfl fun kk _ => by rw [h0, h1]

/-- Column `kk` of column block `k < 32` is column `256·k + kk`: nothing wraps. -/
theorem blk_val (k : ℕ) (hk : k < 32) (kk : Fin 256) : (blk 256 k kk).val = 256 * k + kk.val := by
  show (256 * k + kk.val) % 8192 = _
  have := kk.isLt; omega

/-- The two operand blocks' contraction at point `t` is column block `k`'s contribution to the entry the point's
    `(p, q)` sits at. -/
theorem contr_at (c : Dev nD) (t : Fin cfg1.N) (p q : Fin 1024) (r e : Fin 8192)
    (hr : r.val = 1024 * (t.val / 256) + p.val) (he : e.val = 1024 * (t.val / 32 % 8) + q.val) :
    ∑ kk : Fin 256, (show Vec Ideal S1024x256 .bf16 from iblk1 V c 0 t) (ix2 p kk) * (show Vec Ideal S256x1024 .bf16 from iblk1 V c 1 t) (ix2 kk q)
      = term1 V c r e (t.val % 32) :=
  contr_of (iblk1 V c 0 t) (iblk1 V c 1 t) p q (M46 V c) (M47 V c) r e (t.val % 32)
    (fun kk => iblk1_0_apply V c t p kk r (blk 256 (t.val % 32) kk) hr (blk_val (t.val % 32) (Nat.mod_lt _ (by norm_num)) kk))
    (fun kk => iblk1_1_apply V c t kk q (blk 256 (t.val % 32) kk) e (blk_val (t.val % 32) (Nat.mod_lt _ (by norm_num)) kk) he)

/-- At a point with `k = 0` the accumulator is left at block 0's contribution. -/
theorem acc_A (c : Dev nD) (t : Fin cfg1.N) (h0 : t.val % 32 = 0) (p q : Fin 1024) (r e : Fin 8192)
    (hr : r.val = 1024 * (t.val / 256) + p.val) (he : e.val = 1024 * (t.val / 32 % 8) + q.val) :
    ((outsAt1 V c t.val t.isLt).2 : S1024x1024.Idx → EReal) (ix2 p q) = accum (term1 V c r e) 0 := by
  have h1 : ¬t.val % 32 = 31 := by omega
  rw [outsAt1_A V c t h0 h1]
  dsimp only
  rw [sout1_A_0_eq]
  exact step_first (iblk1 V c 0 t) (iblk1 V c 1 t) p q (term1 V c r e) ((contr_at V c t p q r e hr he).trans (by rw [h0]))

/-- At a point with `k = m + 1` the accumulator is left at the running sum through block `m + 1`, if the point before left
    it at the running sum through block `m`. -/
theorem acc_BC (c : Dev nD) (t : Fin cfg1.N) (h0 : ¬t.val % 32 = 0) (p q : Fin 1024) (r e : Fin 8192)
    (hr : r.val = 1024 * (t.val / 256) + p.val) (he : e.val = 1024 * (t.val / 32 % 8) + q.val) (m : ℕ) (hm : t.val % 32 = m + 1)
    (ih : ((outsAt1 V c (t.val - 1) (Nat.lt_of_le_of_lt (Nat.sub_le _ _) t.isLt)).2 : S1024x1024.Idx → EReal) (ix2 p q) = accum (term1 V c r e) m) :
    ((outsAt1 V c t.val t.isLt).2 : S1024x1024.Idx → EReal) (ix2 p q) = accum (term1 V c r e) (m + 1) := by
  by_cases h1 : t.val % 32 = 31
  · rw [outsAt1_C V c t h0 h1]
    dsimp only
    rw [sout1_C_0_eq]
    exact step_next _ (iblk1 V c 0 t) (iblk1 V c 1 t) p q (term1 V c r e) m ih ((contr_at V c t p q r e hr he).trans (by rw [hm]))
  · rw [outsAt1_B V c t h0 h1]
    dsimp only
    rw [sout1_B_0_eq]
    exact step_next _ (iblk1 V c 0 t) (iblk1 V c 1 t) p q (term1 V c r e) m ih ((contr_at V c t p q r e hr he).trans (by rw [hm]))

/-- THE INVARIANT: after point `n = 256·i + 32·j + k` the accumulator's entry `(p, q)` is the running sum through column
    block `k` of the product's entry `(1024·i + p, 1024·j + q)` — by induction on the point. -/
theorem acc_inv (c : Dev nD) : ∀ (n : ℕ) (h : n < cfg1.N) (p q : Fin 1024) (r e : Fin 8192),
    r.val = 1024 * (n / 256) + p.val → e.val = 1024 * (n / 32 % 8) + q.val →
    ((outsAt1 V c n h).2 : S1024x1024.Idx → EReal) (ix2 p q) = accum (term1 V c r e) (n % 32)
  | 0, h, p, q, r, e, hr, he => acc_A V c ⟨0, h⟩ rfl p q r e hr he
  | n + 1, h, p, q, r, e, hr, he => by
    by_cases h0 : (n + 1) % 32 = 0
    · rw [h0]; exact acc_A V c ⟨n + 1, h⟩ h0 p q r e hr he
    · obtain ⟨m, hm⟩ : ∃ m, (n + 1) % 32 = m + 1 := ⟨(n + 1) % 32 - 1, by omega⟩
      rw [hm]
      refine acc_BC V c ⟨n + 1, h⟩ h0 p q r e hr he m hm ?_
      have ih := acc_inv c n (Nat.lt_of_succ_lt h) p q r e (by omega) (by omega)
      rw [show n % 32 = m by omega] at ih
      exact ih

/-! ## The output block at the last reduction step, and the array -/

/-- At a point with `k = 31` the output's buffer is the last stage's combination of this point's accumulator and the two
    epilogue blocks. -/
theorem outsAt1_C_fst (c : Dev nD) (t : Fin cfg1.N) (h0 : ¬t.val % 32 = 0) (h1 : t.val % 32 = 31) :
    (outsAt1 V c t.val t.isLt).1 = k1_pay3 (F := Ideal) (grid1.coords t) (outsAt1 V c t.val t.isLt).2 (iblk1 V c 2 t) (iblk1 V c 3 t) := by
  rw [outsAt1_C V c t h0 h1]
  dsimp only
  rw [out1_C_4_eq, sout1_C_0_eq]

/-- That buffer's entry `(p, q)`, as a function of the arrays at the entry `(r, e)` it sits at. -/
theorem out_apply (c : Dev nD) (t : Fin cfg1.N) (h1 : t.val % 32 = 31) (p q : Fin 1024) (r e : Fin 8192)
    (hr : r.val = 1024 * (t.val / 256) + p.val) (he : e.val = 1024 * (t.val / 32 % 8) + q.val) :
    ((outsAt1 V c t.val t.isLt).1 : S1024x1024.Idx → EReal) (ix2 p q)
      = Ideal.ofBits .f32 0x3E75C28F#32 * ((accum (term1 V c r e) 31 + M46 V c r e) + M47 V c r e)
        + eye r e * Ideal.ofBits .f32 0x3ECCCCCD#32 := by
  have h0 : ¬t.val % 32 = 0 := by omega
  obtain ⟨-, -, -, -, -, -, -, -, -, -, ei0, ei1⟩ := idx_facts1 t
  rw [outsAt1_C_fst V c t h0 h1]
  refine (Pay.pay1_3 (grid1.coords t) (outsAt1 V c t.val t.isLt).2 (iblk1 V c 2 t) (iblk1 V c 3 t) p q).trans ?_
  have hacc := acc_inv V c t.val t.isLt p q r e hr he
  rw [h1] at hacc
  have hd : (if 1024 * ((grid1.coords t) 0).val + p.val = 1024 * ((grid1.coords t) 1).val + q.val then (1 : EReal) else 0) = eye r e := by
    unfold eye
    rw [ei0, ei1]
    refine if_congr ?_ rfl rfl
    rw [Fin.ext_iff, hr, he]
  rw [hd, hacc, iblk1_2_apply V c t p q r e hr he, iblk1_3_apply V c t p q r e hr he]

/-- What the output array ends holding, entry by entry. -/
def G1 (c : Dev nD) : S8192x8192.Idx → EReal := fun x =>
  Ideal.ofBits .f32 0x3E75C28F#32 * ((accum (term1 V c (x 0) (x 1)) 31 + M46 V c (x 0) (x 1)) + M47 V c (x 0) (x 1))
    + eye (x 0) (x 1) * Ideal.ofBits .f32 0x3ECCCCCD#32

/-- WHAT A POINT WITH `k = 31` WRITES BACK is its block of `G1`. -/
theorem flushed1_eq (c : Dev nD) (t : Fin cfg1.N) (hf : (cfg1.win 4).flush t = true) :
    (dat1 V qs c).flushed 4 t = ((cfg1.win 4).blk t).view.read (Elt Ideal) (G1 V c) := by
  have h31 : t.val % 32 = 31 := (flush1_4 t).mp hf
  obtain ⟨-, -, -, -, -, -, -, -, e40, e41, -, -⟩ := idx_facts1 t
  show (cfg1.win 4).cut (grid1.coords t) ((dat1 V qs c).after 4 t) = _
  rw [after1_4]
  funext y
  show ((outsAt1 V c t.val t.isLt).1 : S1024x1024.Idx → EReal) y = G1 V c (((cfg1.win 4).blk t).view.emb y)
  have hr : ((((cfg1.win 4).blk t).view.emb y) 0).val = 1024 * (t.val / 256) + (y 0).val := by
    show win1_4.index t (0 : Fin 2) * 1024 + 1 * (y 0).val = _; rw [e40]; omega
  have he : ((((cfg1.win 4).blk t).view.emb y) 1).val = 1024 * (t.val / 32 % 8) + (y 1).val := by
    show win1_4.index t (1 : Fin 2) * 1024 + 1 * (y 1).val = _; rw [e41]; omega
  refine (congrArg ((outsAt1 V c t.val t.isLt).1 : S1024x1024.Idx → EReal) (eq_ix2 y)).trans ?_
  exact out_apply V c t h31 (y 0) (y 1) _ _ hr he

/-- An index of the array is in point `t`'s block iff each coordinate is in the block's range on its axis. -/
theorem mem_blk1_4 (t : Fin cfg1.N) (x : S8192x8192.Idx) :
    x ∈ ((cfg1.win 4).blk t).view.set ↔ ∀ a : Fin 2, win1_4.index t a * S1024x1024.size a ≤ (x a).val ∧ (x a).val < win1_4.index t a * S1024x1024.size a + S1024x1024.size a := by
  show x ∈ ((View.whole main_v48).slice (win1_4.rect t)).set ↔ _
  rw [View.set_slice_whole, Rect.mem_set_unit]
  exact Iff.rfl

/-- Every entry `(r, e)` of the array is in the block written back at the point `256·(r / 1024) + 32·(e / 1024) + 31`. -/
theorem cover1_4 (x : S8192x8192.Idx) : ∃ t : Fin cfg1.N, (cfg1.win 4).flush t = true ∧ x ∈ ((cfg1.win 4).blk t).view.set := by
  have hx0 : (x 0).val < 8192 := (x 0).isLt
  have hx1 : (x 1).val < 8192 := (x 1).isLt
  have hN : cfg1.N = 2048 := N_1
  obtain ⟨t, ht⟩ : ∃ t : Fin cfg1.N, t.val = 256 * ((x 0).val / 1024) + 32 * ((x 1).val / 1024) + 31 :=
    ⟨⟨256 * ((x 0).val / 1024) + 32 * ((x 1).val / 1024) + 31, by omega⟩, rfl⟩
  obtain ⟨-, -, -, -, -, -, -, -, e40, e41, -, -⟩ := idx_facts1 t
  refine ⟨t, (flush1_4 t).mpr (by omega), ?_⟩
  rw [mem_blk1_4]
  intro a
  match a with
  | ⟨0, _⟩ => show win1_4.index t (0 : Fin 2) * 1024 ≤ (x 0).val ∧ (x 0).val < win1_4.index t (0 : Fin 2) * 1024 + 1024; rw [e40]; omega
  | ⟨1, _⟩ => show win1_4.index t (1 : Fin 2) * 1024 ≤ (x 1).val ∧ (x 1).val < win1_4.index t (1 : Fin 2) * 1024 + 1024; rw [e41]; omega

/-- THE ARRAY after the region: `G1` of the arrays the region read. -/
theorem final1_fun (c : Dev nD) : (dat1 V qs c).arrAt 4 cfg1.N = G1 V c :=
  (dat1 V qs c).arrAt_eq_of_cover 4 (G1 V c) (fun t hf => flushed1_eq V qs c t hf) cover1_4

/-- Entry `(r, e)` of it: `θ · ((A·A² accumulated over 32 column blocks of 256 + A) + A²) + δ · α`, with `A` the first array
    the region read and `A²` the second. -/
theorem final1 (c : Dev nD) (r e : Fin 8192) :
    ((dat1 V qs c).arrAt 4 cfg1.N : S8192x8192.Idx → EReal) (ix2 r e)
      = Ideal.ofBits .f32 0x3E75C28F#32
          * ((accum (fun kb => ∑ kk : Fin 256, M46 V c r (blk 256 kb kk) * M47 V c (blk 256 kb kk) e) 31
              + M46 V c r e) + M47 V c r e)
        + eye r e * Ideal.ofBits .f32 0x3ECCCCCD#32 := by
  rw [final1_fun]; rfl

end Cert.KernelIdeal.Hand

end
-- ==== Proof.Ideal.HostChain.lean ====
/-
  Both programs build the normalized adjacency matrix by the same sequence of host operations on the same two
  arguments; the blocked program then changes its format, which on the extended reals is the identity. So the matrix the
  blocked products read is, entry for entry, the matrix the reference contracts.

  The two sequences are compared operation by operation as terms: an accumulating scatter, a gather or a power is never
  evaluated, only matched with its namesake on the other side, operand by operand.
-/
import proofs.«163472_j66348654788876_2_alg».proof.Proof.Gen.KernelIdeal.Regions
import proofs.«163472_j66348654788876_2_alg».proof.Proof.Gen.ReferenceIdeal.Read

noncomputable section

namespace Cert.KernelIdeal.Host

open Cert.KernelIdeal Cert.KernelIdeal.Gen Idealize.ShloMosaic Idealize.ShloMosaic.TcCoe Idealize.SL.Sem
  Idealize.ShloMosaic.StableHlo

/-- Two index columns laid side by side, as a function of the two columns. -/
def pairCols (x y : S524288x1.Idx → BitVec 32) : S524288x2.Idx → BitVec 32 :=
  concatenate S524288x2 1 [⟨S524288x1, x⟩, ⟨S524288x1, y⟩] concatenates_S524288x1_S524288x1_S524288x2_d1

theorem pairCols_eq (x y : S524288x1.Idx → BitVec 32) :
    concatenate S524288x2 1 [⟨S524288x1, x⟩, ⟨S524288x1, y⟩] concatenates_S524288x1_S524288x1_S524288x2_d1 = pairCols x y := rfl

/-- The two programs' side-by-side columns agree when the columns do. -/
theorem pairCols_congr {A A' B B' : S524288x1.Idx → BitVec 32} (hA : A = A') (hB : B = B') :
    pairCols A B
      = concatenate Cert.ReferenceIdeal.S524288x2 1
          [⟨Cert.ReferenceIdeal.S524288x1, A'⟩, ⟨Cert.ReferenceIdeal.S524288x1, B'⟩]
          Cert.ReferenceIdeal.Gen.concatenates_S524288x1_S524288x1_S524288x2_d1 := by
  subst hA hB; rfl

/-- The two programs' accumulating scatters agree when their three operands do. -/
theorem scatter_congr {X X' : S8192x8192.Idx → EReal} {I I' : S524288x2.Idx → BitVec 32} {U U' : S524288.Idx → EReal}
    (hX : X = X') (hI : I = I') (hU : U = U') :
    (Host.scatterAdd (F := Ideal) (φ := .f32) scatter_S8192x8192_S524288x2_S524288_n_01_01_1 X I U : S8192x8192.Idx → EReal)
      = Host.scatterAdd (F := Ideal) (φ := .f32) Cert.ReferenceIdeal.scatter_S8192x8192_S524288x2_S524288_n_01_01_1 X' I' U' := by
  subst hX hI hU; rfl

/-- The change of format is the identity. -/
theorem truncf_id (X : S8192x8192.Idx → EReal) :
    (truncf (F := Ideal) (φ := .f32) .bf16 X bitsLt_bf16_f32 : S8192x8192.Idx → EReal) = X := rfl

set_option maxRecDepth 16384 in
set_option maxHeartbeats 40000000 in
/-- The matrix the blocked program holds after its host operations is the reference's adjacency matrix of the same two
    arguments. -/
theorem adj_eq (m : (ℓ : Loc nD τ sig) → Buf (Elt Ideal) ℓ) (c : Dev nD) :
    (Gen.V1 m c (Proc.devRef .tc main_v46) : S8192x8192.Idx → EReal)
      = Cert.ReferenceIdeal.Read.val_main_v45 (F := Ideal) (m ((c.tc : Thread nD τ).loc main_arg1))
          (m ((c.tc : Thread nD τ).loc main_arg2)) := by
  show StableHlo.after Gen.hostOps0 (fun b => m (c, b)) (Proc.devRef .tc main_v46) = _
  simp (disch := decide) only [pairCols_eq, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  refine (truncf_id _).trans ?_
  unfold Cert.ReferenceIdeal.Read.val_main_v45
  refine scatter_congr ?_ ?_ ?_
  · rfl
  · unfold Cert.ReferenceIdeal.Read.val_main_v44
    exact pairCols_congr rfl rfl
  · rfl

end Cert.KernelIdeal.Host

end
-- ==== Proof.RefValue.lean ====
/-
  The reference program's result, index by index, is the diffusion matrix of its adjacency matrix.

  The reference forms `A·A` and `A·(A·A)` by two full contractions, adds `(A + A·A) + A·(A·A)`, scales by the
  constant `θ`, and adds `α` times the identity matrix, which it builds by comparing a row counter with a column
  counter (32-bit words that hold the numbers below 8192 exactly, so equal words mean equal numbers) and converting
  the one-bit answer to a float. At the extended reals each of these operations is its textbook one.
-/
import proofs.«163472_j66348654788876_2_alg».proof.Proof.Gen.ReferenceIdeal.Read
import proofs.«163472_j66348654788876_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The first product reads row `r` of the left factor at column `k` … -/
theorem lidx46 (r e k : Fin 8192) : lidx_main_v46 (ix2 r e) k = ix2 r k :=
  funext fun a => Fin.ext (by match a with | ⟨0, _⟩ => rfl | ⟨1, _⟩ => rfl)
/-- … and column `e` of the right factor at row `k`. -/
theorem ridx46 (r e k : Fin 8192) : ridx_main_v46 (ix2 r e) k = ix2 k e :=
  funext fun a => Fin.ext (by match a with | ⟨0, _⟩ => rfl | ⟨1, _⟩ => rfl)
/-- The second product reads the same two places. -/
theorem lidx47 (r e k : Fin 8192) : lidx_main_v47 (ix2 r e) k = ix2 r k :=
  funext fun a => Fin.ext (by match a with | ⟨0, _⟩ => rfl | ⟨1, _⟩ => rfl)
theorem ridx47 (r e k : Fin 8192) : ridx_main_v47 (ix2 r e) k = ix2 k e :=
  funext fun a => Fin.ext (by match a with | ⟨0, _⟩ => rfl | ⟨1, _⟩ => rfl)

/-- The first contraction is `A·A`. -/
theorem sq_apply (x1 : (⟨S524288, .f32⟩ : BufTy).Contents (Elt Ideal)) (x2 : (⟨S2x524288, .i32⟩ : BufTy).Contents (Elt Ideal))
    (p q : Fin 8192) :
    val_main_v46 (F := Ideal) x1 x2 (ix2 p q)
      = ∑ k : Fin 8192, val_main_v45 (F := Ideal) x1 x2 (ix2 p k) * val_main_v45 (F := Ideal) x1 x2 (ix2 k q) := by
  rw [val_main_v46_apply]
  refine Finset.sum_congr rfl fun k _ => ?_
  rw [lidx46, ridx46]

/-- The second contraction is `A·(A·A)`. -/
theorem cube_apply (x1 : (⟨S524288, .f32⟩ : BufTy).Contents (Elt Ideal)) (x2 : (⟨S2x524288, .i32⟩ : BufTy).Contents (Elt Ideal))
    (p q : Fin 8192) :
    val_main_v47 (F := Ideal) x1 x2 (ix2 p q)
      = ∑ k : Fin 8192, val_main_v45 (F := Ideal) x1 x2 (ix2 p k)
          * ∑ l : Fin 8192, val_main_v45 (F := Ideal) x1 x2 (ix2 k l) * val_main_v45 (F := Ideal) x1 x2 (ix2 l q) := by
  rw [val_main_v47_apply]
  refine Finset.sum_congr rfl fun k _ => ?_
  rw [lidx47, ridx47, sq_apply]

/-- The converted comparison of the row counter with the column counter is the identity matrix: the counters are
    below 8192, so as 32-bit words they are equal exactly when the numbers are. -/
theorem eye_apply (r e : Fin 8192) : val_main_v57 (F := Ideal) (ix2 r e) = Cert.Spec.eye r e := by
  rw [val_main_v57_apply, val_main_v56_apply, val_main_v55_apply, val_main_v52_apply, val_main_v54_apply,
    val_main_c_13_apply, val_main_v53_apply]
  show (((IntOp.cmpi .eq (IntOp.addi (BitVec.ofNat 32 r.val) 0#32) (BitVec.ofNat 32 e.val)).toNat : ℝ) : EReal) = _
  have hr := r.isLt
  have he := e.isLt
  by_cases h : r = e
  · subst h
    simp [Cert.Spec.eye, IntOp.cmpi, IntOp.addi]
  · have hne : (BitVec.ofNat 32 r.val + 0#32 == BitVec.ofNat 32 e.val) = false := by
      rw [BitVec.add_zero, beq_eq_false_iff_ne]
      intro hh
      have := congrArg BitVec.toNat hh
      rw [BitVec.toNat_ofNat, BitVec.toNat_ofNat] at this
      exact h (Fin.ext (by omega))
    simp only [Cert.Spec.eye, IntOp.cmpi, IntOp.addi, hne, if_neg h]
    simp

/-- The reference's result at row `r`, column `e` is the diffusion matrix of the adjacency matrix it built. -/
theorem ref_eq (x1 : (⟨S524288, .f32⟩ : BufTy).Contents (Elt Ideal)) (x2 : (⟨S2x524288, .i32⟩ : BufTy).Contents (Elt Ideal))
    (r e : Fin 8192) :
    val_main_v60 (F := Ideal) x1 x2 (ix2 r e)
      = Cert.Spec.diffusion (Ideal.ofBits .f32 0x3E75C28F#32) (Ideal.ofBits .f32 0x3ECCCCCD#32)
          (fun p q => val_main_v45 (F := Ideal) x1 x2 (ix2 p q)) r e := by
  rw [val_main_v60_apply, val_main_v51_apply, val_main_v50_apply, val_main_cst_12_apply, val_main_v49_apply,
    val_main_v48_apply, cube_apply, sq_apply, val_main_v59_apply, val_main_v58_apply, val_main_cst_14_apply, eye_apply]
  rfl

end Cert.ReferenceIdeal.RefValue

end
-- ==== Proof.Ideal.Algebraic.lean ====
/-
  The value claim: at the ideal instance the kernel's program and the reference end with the same result array.

  Both programs build the normalized adjacency matrix `A` by the same host operations. The kernel's program forms `A·A`
  block by block (region 0), then `A·(A·A)` block by block and `θ·((A·(A·A) + A) + A·A) + eye·α` in the last block's step
  (region 1); the reference forms the two products whole and `θ·((A + A·A) + A·(A·A)) + α·eye`. On the extended reals these
  agree by commutativity and associativity of `+` and `·` and the regrouping of the finite sums: no entry need be finite.
-/
import proofs.«163472_j66348654788876_2_alg».proof.Defs
import proofs.«163472_j66348654788876_2_alg».proof.Proof.Ideal.Frames
import proofs.«163472_j66348654788876_2_alg».proof.Proof.Ideal.R0Value
import proofs.«163472_j66348654788876_2_alg».proof.Proof.Ideal.R1Value
import proofs.«163472_j66348654788876_2_alg».proof.Proof.Ideal.HostChain
import proofs.«163472_j66348654788876_2_alg».proof.Proof.RefValue
import proofs.«163472_j66348654788876_2_alg».proof.Proof.Gen.ReferenceIdeal.Run
import proofs.«163472_j66348654788876_2_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- The adjacency matrix, as the reference's host operations build it from the two arguments it depends on. -/
def adj (c : Dev nD) : Fin 8192 → Fin 8192 → EReal := fun p q =>
  Cert.ReferenceIdeal.Read.val_main_v45 (F := Ideal) (m ((c.tc : Thread nD τ).loc main_arg1)) (m ((c.tc : Thread nD τ).loc main_arg2)) (ix2 p q)

/-- Region 1 finds the adjacency matrix in `main_v46`: region 0 does not write it, and the host operations are the reference's. -/
theorem mid_adj (c : Dev nD) : M46 (Vmid m) c = adj m c := by
  funext p q
  show Function.update (Gen.V1 m c) (Proc.devRef .tc main_v47) ((datA m c).arrAt 2 cfg0.N) (Proc.devRef .tc main_v46) (ix2 p q) = _
  rw [Function.update_of_ne (StableHlo.devRef_ne_of_ne (by decide) : (Proc.devRef .tc main_v46 : DevRef τ sig) ≠ Proc.devRef .tc main_v47)]
  exact congrFun (Cert.KernelIdeal.Host.adj_eq m c) (ix2 p q)

/-- Region 0 finds it there too. -/
theorem in_adj (c : Dev nD) : (fun p q => Vin0 m c main_v46 (ix2 p q) : Fin 8192 → Fin 8192 → EReal) = adj m c := by
  funext p q
  exact congrFun (Cert.KernelIdeal.Host.adj_eq m c) (ix2 p q)

/-- Region 1 finds the matrix's square, accumulated block by block, in `main_v47`. -/
theorem mid_sq (c : Dev nD) : M47 (Vmid m) c = Cert.Spec.sq (adj m c) := by
  funext p q
  show Function.update (Gen.V1 m c) (Proc.devRef .tc main_v47) ((datA m c).arrAt 2 cfg0.N) (Proc.devRef .tc main_v47) (ix2 p q) = _
  rw [Function.update_self]
  exact (final0 (Vin0 m) qs0 c p q).trans (by rw [in_adj])

/-- THE RESULT: what region 1's write-backs leave in the result array is the reference's result, entry by entry. -/
theorem result_eq (c : Dev nD) :
    ((pdatsOf m 1 c).arrAt 4 cfg1.N : S8192x8192.Idx → EReal)
      = Cert.ReferenceIdeal.Read.val_main_v60 (F := Ideal) (m ((c.tc : Thread nD τ).loc main_arg1)) (m ((c.tc : Thread nD τ).loc main_arg2)) := by
  funext j
  obtain ⟨r, e, rfl⟩ : ∃ (r e : Fin 8192), j = ix2 r e := ⟨j 0, j 1, eq_ix2 j⟩
  rw [pdatsOf_one]
  refine (final1 (Vmid m) qs1 c r e).trans ?_
  rw [mid_adj, mid_sq, Cert.ReferenceIdeal.RefValue.ref_eq]
  exact Cert.Spec.kernel_eq_diffusion _ _ (adj m c) r e

end Cert.KernelIdeal.Hand

/-! ## The claims -/

namespace Cert.Proof.Claims

open Idealize.ShloMosaic Idealize.SL.Sem

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same result array. -/
theorem algebraic : Cert.algebraic_KernelIdeal_ReferenceIdeal := by
  intro m ρ m' ρ' _ hagree
  refine ⟨fun c => (Cert.KernelIdeal.Hand.pdatsOf m 1 c).arrAt 4 Cert.KernelIdeal.cfg1.N, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).2.1, (hagree c).2.2]
  exact (Cert.KernelIdeal.Hand.result_eq m c).symm

end Cert.Proof.Claims

end
-- ==== Proof.lean ====
/-
  The certificate's claim, assembled.

  The kernel's program computes `P = θ·((A·(A·A) + A) + A·A) + eye·α` for the normalized adjacency matrix `A` that its
  host operations scatter from the edge list: `A·A` by one kernel region, accumulated over eight column blocks in a
  scratch accumulator, and `A·(A·A)` with the combination by a second region, accumulated over thirty-two blocks; the
  reference computes `θ·((A + A·A) + A·(A·A)) + α·eye` with the two products whole.
  * Each program runs to the end, faults nowhere and leaves its three arguments as launched: for the kernel's program,
    read at the bit-exact instance and at the ideal one, from the two regions' body proofs chained through @main
    (`Proof/Bits`, `Proof/Ideal`); for the reference from its run.
  * The idealization rewrote no operation, so there is nothing to preserve.
  * On the extended reals the two results agree entry by entry (`Proof/Ideal/Algebraic.lean`): the same matrix `A` on both
    sides, and commutativity, associativity and the regrouping of finite sums between the two arrangements.
-/
import proofs.«163472_j66348654788876_2_alg».proof.Defs
import proofs.«163472_j66348654788876_2_alg».proof.Proof.Gen.Kernel
import proofs.«163472_j66348654788876_2_alg».proof.Proof.Gen.KernelIdeal
import proofs.«163472_j66348654788876_2_alg».proof.Proof.Gen.ReferenceIdeal
import proofs.«163472_j66348654788876_2_alg».proof.Proof.Gen.Pre_finite_inputs
import proofs.«163472_j66348654788876_2_alg».proof.Proof.Gen.ReferenceIdeal.Run
import proofs.«163472_j66348654788876_2_alg».proof.Proof.Gen.ReferenceIdeal.Read
import proofs.«163472_j66348654788876_2_alg».proof.Proof.Bits.Frames
import proofs.«163472_j66348654788876_2_alg».proof.Proof.Ideal.Algebraic

noncomputable section

namespace Cert.Proof

open Idealize.ShloMosaic Idealize.SL.Sem

/-- The word-level program's frame: the same body proofs and the same chaining, read at the bit-exact instance. -/
theorem frame_k : Cert.frame_Kernel := fun m ρ _ => Cert.Kernel.Hand.frame m ρ

theorem claim : Cert.Claim :=
  ⟨Cert.Kernel.Gen.facts, Cert.KernelIdeal.Gen.facts, Cert.ReferenceIdeal.Gen.facts, Cert.Pre_finite_inputs.Gen.facts,
    frame_k, Claims.frame_ki, Claims.frame_ri, trivial, Claims.algebraic⟩

end Cert.Proof

end
